-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S2048x128 : Shape := ⟨2, ![2048, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S2048x128 .f32) : IVec S_ 1 :=
  let main_v0 : FVec F S2048x128 .f32 := Host.absf main_arg1
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 2047#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S2048x128 : Shape := ⟨2, ![2048, 128]⟩
abbrev S4096x200x128 : Shape := ⟨3, ![4096, 200, 128]⟩
abbrev S200x128 : Shape := ⟨2, ![200, 128]⟩
abbrev S_ : Shape := ⟨0, ![]⟩
abbrev S1x200x128 : Shape := ⟨3, ![1, 200, 128]⟩

abbrev nBuf : Table → Nat
  | .hbm => 3
  | .local .scVector .vmem => 1
  | _ => 0

abbrev bufTy : (tb : Table) → Fin (nBuf tb) → BufTy
  | .hbm, ⟨0, _⟩ => ⟨S4096x200, .i32⟩
  | .hbm, ⟨1, _⟩ => ⟨S2048x128, .f32⟩
  | .hbm, ⟨2, _⟩ => ⟨S4096x200x128, .f32⟩
  | .local .scVector .vmem, ⟨0, _⟩ => ⟨S200x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c128_i32_1 : BitVec 32 := 128#32
  let v3 : BitVec 32 := Scalar.addi c0_i32_0 c128_i32_1
  let c1_i32 : BitVec 32 := 1#32
  ⟨c0_i32_0, v3, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32 : BitVec 32 := 1#32
  let arg5 : BitVec 32 := Scf.iv c0_i32_0 c1_i32 k0_t1
  let v4 : BitVec 32 := Scalar.addi v2 arg5
  let c0_i32_3_r1 : BitVec 32 := 0#32
  let c0_i32_4_r1 : BitVec 32 := 0#32
  ![v4.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2048x128_S200x128_0_0 : ∀ a, (![0, 0] : Fin 2 → Nat) a + S200x128.size a ≤ S2048x128.size a
  squeezes_S1x200x128_S200x128 : S1x200x128.Squeezes S200x128
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x200x128.size a ≤ S4096x200x128.size a

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S4096x200 : Shape := ⟨2, ![4096, 200]⟩
abbrev S2048x128 : Shape := ⟨2, ![2048, 128]⟩
abbrev S200 : Shape := ⟨1, ![200]⟩
abbrev S1x200 : Shape := ⟨2, ![1, 200]⟩
abbrev S1x1x1x200 : Shape := ⟨4, ![1, 1, 1, 200]⟩
abbrev S4096x1x1x200 : Shape := ⟨4, ![4096, 1, 1, 200]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S2048x128, .f32⟩
  | .hbm, ⟨2, _⟩ => ⟨S200, .i32⟩
  | .hbm, ⟨3, _⟩ => ⟨S1x200, .i32⟩
  | .hbm, ⟨4, _⟩ => ⟨S1x1x1x200, .i32⟩
  | .hbm, ⟨5, _⟩ => ⟨S4096x1x1x200, .i32⟩
  | .hbm, ⟨6, _⟩ => ⟨S4096x200, .i32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S4096x200, .i32⟩
  | .hbm, ⟨14, _⟩ => ⟨S4096x200x1, .i32⟩
  | .hbm, ⟨15, _⟩ => ⟨S1, .i32⟩
  | .hbm, ⟨16, _⟩ => ⟨S_, .i32⟩
  | .hbm, ⟨17, _⟩ => ⟨S4096x200x1, .i32⟩
  | .hbm, ⟨18, _⟩ => ⟨S4096x200x1, .i1⟩
  | .hbm, ⟨19, _⟩ => ⟨S1x1x1, .i32⟩
  | .hbm, ⟨20, _⟩ => ⟨S4096x200x1, .i32⟩
  | .hbm, ⟨21, _⟩ => ⟨S4096x200x1, .i1⟩
  | .hbm, ⟨22, _⟩ => ⟨S4096x200x1, .i1⟩
  | .hbm, ⟨23, _⟩ => ⟨S_, .i1⟩
  | .hbm, ⟨24, _⟩ => ⟨S4096x200, .i1⟩
  | .hbm, ⟨25, _⟩ => ⟨S4096x200x128, .f32⟩
  | .hbm, ⟨26, _⟩ => ⟨S4096x200x128, .i1⟩
  | .hbm, ⟨27, _⟩ => ⟨S_, .f32⟩
  | .hbm, ⟨28, _⟩ => ⟨S4096x200x128, .f32⟩
  | .hbm, ⟨29, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S200_S1x200_1 : S200.BroadcastsInDim S1x200 (![1] : Fin 1 → Fin S1x200.rank)
  shapeCasts_S1x200_S1x1x1x200 : S1x200.ShapeCasts S1x1x1x200
  bcast_S1x1x1x200_S4096x1x1x200_0_1_2_3 : S1x1x1x200.BroadcastsInDim S4096x1x1x200 (![0, 1, 2, 3] : Fin 4 → Fin S4096x1x1x200.rank)
  shapeCasts_S4096x1x1x200_S4096x200 : S4096x1x1x200.ShapeCasts S4096x200
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S2048x128_S4096x200x1_S4096x200x128_2_0_n_n_0_2_1128_wf : GatherDims.WF S2048x128 S4096x200x1 S4096x200x128 [2] [0] [] [0] [] 2 ![1, 128]

variable [Facts₀]

def gather_S2048x128_S4096x200x1_S4096x200x128_2_0_n_n_0_2_1128 : GatherDims S2048x128 S4096x200x1 S4096x200x128 where
  offsetDims := [2]
  collapsedSliceDims := [0]
  operandBatchingDims := []
  startIndicesBatchingDims := []
  startIndexMap := [0]
  indexVectorDim := 2
  sliceSizes := ![1, 128]
  wf := gather_S2048x128_S4096x200x1_S4096x200x128_2_0_n_n_0_2_1128_wf

class Facts : Prop extends Facts₀ where

variable [Facts]
-- ==== Proof.Spec.lean ====
/-
  What both programs compute, as one function of the table: entry (b, s, u) of the result is entry (s, u) of the
  table, for every batch entry b. The kernel gets there by copying the table's first 200 rows into each of the 4096
  batch entries; the reference by looking the table up at the row numbers 0, 1, …, 199, the same list for every batch
  entry. No arithmetic is done on a table entry by either, so the function is stated over any type of entries.
-/
import Idealize.ShloMosaic.Lib.ValueIdx

namespace Cert.Spec

open Idealize.ShloMosaic Idealize.ShloMosaic.ValueIdx

/-- The table's shape: 2048 rows of 128 lanes. -/
abbrev SW : Shape := ⟨2, ![2048, 128]⟩
/-- The result's shape: 4096 batch entries, each 200 rows of 128 lanes. -/
abbrev SO : Shape := ⟨3, ![4096, 200, 128]⟩

/-- The table entry that entry `(b, s, u)` of the result holds: `(s, u)`; a row number below 200 is one below 2048. -/
def src (i : SO.Idx) : SW.Idx :=
  ix2 (n0 := 2048) (n1 := 128) ⟨(i 1).val, Nat.lt_of_lt_of_le (i 1).isLt (by decide)⟩ ⟨(i 2).val, (i 2).isLt⟩

/-- The result as a function of the table: every batch entry is the table's first 200 rows. -/
def tiled {α : Type} (W : SW.Idx → α) : SO.Idx → α := fun i => W (src i)

theorem tiled_apply {α : Type} (W : SW.Idx → α) (i : SO.Idx) : tiled W i = W (src i) := rfl

/-- The row of the table an entry of the result comes from is the entry's own row number. -/
theorem src_row (i : SO.Idx) : (src i 0).val = (i 1).val := rfl
/-- The lane is the entry's own lane. -/
theorem src_lane (i : SO.Idx) : (src i 1).val = (i 2).val := rfl

end Cert.Spec
-- ==== Proof.KI.Setup.lean ====
/-
  The idealized kernel as the SparseCore launch theorem sees it, and what its handshakes carry.

  Each of the 32 vector subcores (2 SparseCores × 16) copies rows 0 … 199 of the table into its own scratch, then copies
  that scratch into 128 consecutive batch entries of the result: subcore `s` of SparseCore `c` at trip `k` writes batch
  entry `256 s + 128 c + k`. So every subcore READS the same 200 table rows — the table goes out as read shares, one per
  SparseCore, split again one per subcore — and WRITES batch entries nobody else touches — the result goes out cut into
  one piece per (SparseCore, subcore, trip), each piece spelt as the kernel itself slices it. What comes back is the same
  pieces holding `Spec.tiled` of the table. Stated for any float instance: no entry is computed with.
-/
import proofs.«213483_g46943992545627_cont_8to1_c_492_13_alg».proof.Defs
import proofs.«213483_g46943992545627_cont_8to1_c_492_13_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«213483_g46943992545627_cont_8to1_c_492_13_alg».proof.Proof.Gen.KernelIdeal
import proofs.«213483_g46943992545627_cont_8to1_c_492_13_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The integer argument (never read), the table, the result, as locations of device `d`. -/
abbrev aLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

/-- The table and the result as a vector subcore names them, and a subcore's scratch. -/
abbrev wV : Memref sig .scVector .hbm S2048x128 .f32 := Memref.whole main_arg1_scv
abbrev oV : Memref sig .scVector .hbm S4096x200x128 .f32 := Memref.whole main_v0_scv
abbrev sT : Memref sig .scVector .vmem S200x128 .f32 := Memref.whole cc0_scratch0

/-- A subcore's grid coordinates from its SparseCore and its number. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl
theorem trips_eq : k0_t1_loop.trips = 128 := by decide

/-- The table's first 200 rows, as the kernel slices them. -/
abbrev wTop : Memref sig .scVector .hbm S200x128 .f32 :=
  (wV : Memref sig .scVector .hbm S2048x128 .f32).slice (Rect.unit (s := S2048x128) ![0, 0] S200x128.size Facts₀.inb_S2048x128_S200x128_0_0) (fun _ => rfl)

/-- The batch entry the subcore at `L` writes at trip `k`, as the kernel slices it: one batch entry, its unit axis dropped. -/
abbrev oRowK (L : grid0.Coords) (k : Fin k0_t1_loop.trips) : Memref sig .scVector .hbm S200x128 .f32 :=
  ((oV : Memref sig .scVector .hbm S4096x200x128 .f32).slice (Rect.unit (s := S4096x200x128) (k0_off1 L k) S1x200x128.size (Facts₀.k0_off1_inb L k)) (fun _ => rfl)).squeeze
    S200x128 Facts₀.squeezes_S1x200x128_S200x128
/-- The entries of the result in that batch entry. -/
abbrev rowSetK (L : grid0.Coords) (k : Fin k0_t1_loop.trips) : Finset S4096x200x128.Idx := (oRowK L k).view.set

/-- The result as a function of the launch memory's table. -/
abbrev G (d : Dev nD) : Buf (Elt F) (oLoc d) := Cert.Spec.tiled (m (wLoc d))

/-! ## The read shares of the table -/

/-- SparseCore `c`'s share of the table, and subcore `i`'s share of that. -/
abbrev qC (c : Fin 2) : PosShare TreeShare := shareTok fullShare 2 c
abbrev qT (c : Fin 2) (i : Fin 16) : PosShare TreeShare := shareTok (qC c) 16 i

/-! ## What the handshakes carry -/

/-- The pieces of the result a subcore is handed, all holding `f`. -/
abbrev tilePieces (d : Dev nD) (L : grid0.Coords) (f : Buf (Elt F) (oLoc d)) : sProp 𝕄 :=
  bigSep Finset.univ fun k : Fin k0_t1_loop.trips => oLoc d ↦[rowSetK L k]{fullShare} f
/-- The pieces a SparseCore is handed: its sixteen subcores'. -/
abbrev corePieces (d : Dev nD) (c : Fin 2) (f : Buf (Elt F) (oLoc d)) : sProp 𝕄 :=
  bigSep Finset.univ fun i : Fin 16 => tilePieces d (coordsV (Fin.cast bound_zero.symm c) (Fin.cast bound_one.symm i)) f

/-- The one call hands SparseCore `c` its share of the table and its pieces of the result at the launch contents, and each
    subcore its share of that share and its own pieces; back come the same, the pieces holding `G`. -/
def P : (K (F := F)).Pay (nD := nD) (Val := Elt F) (Name := ℕ) (U := UU) where
  st := fun q d c => match q with
    | 0 => iprop((wLoc d ↦{qC (Fin.cast nCore_zero c)} m (wLoc d)) ∗ corePieces d (Fin.cast nCore_zero c) (m (oLoc d)))
  dn := fun q d c => match q with
    | 0 => iprop((wLoc d ↦{qC (Fin.cast nCore_zero c)} m (wLoc d)) ∗ corePieces d (Fin.cast nCore_zero c) (G m d))
  go := fun q d c i => match q with
    | 0 => iprop((wLoc d ↦{qT (Fin.cast nCore_zero c) (Fin.cast nSub_zero i)} m (wLoc d))
        ∗ tilePieces d (coordsV (Fin.cast bound_zero.symm (Fin.cast nCore_zero c)) (Fin.cast bound_one.symm (Fin.cast nSub_zero i))) (m (oLoc d)))
  td := fun q d c i => match q with
    | 0 => iprop((wLoc d ↦{qT (Fin.cast nCore_zero c) (Fin.cast nSub_zero i)} m (wLoc d))
        ∗ tilePieces d (coordsV (Fin.cast bound_zero.symm (Fin.cast nCore_zero c)) (Fin.cast bound_one.symm (Fin.cast nSub_zero i))) (G m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.KI.Launch.lean ====
/-
  The launch around the subcores' bodies.

  The TensorCore's @main is one call. It sets the integer argument aside, cuts the table's full share into a remainder
  and one read share per SparseCore, and cuts the result array into the pieces each (SparseCore, subcore, trip) writes;
  a SparseCore's share of the table is cut again into a remainder and one read share per subcore, and its pieces of the
  result are by definition its sixteen subcores'. After the call the same shares come back, joined in the reverse order,
  the pieces now holding the tiling of the table. The kernel's own semaphores carry no rounds, so the launch element is the
  handshakes' rounds alone. The claim is read off the final memory by agreement
  of each of the three whole arrays with what is held of it.
-/
import proofs.«213483_g46943992545627_cont_8to1_c_492_13_alg».proof.Proof.KI.Setup
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## What the handshakes carry, as equations -/

theorem P_st (d : Dev nD) (c : Fin ((K (F := F)).nCore 0)) :
    (P m).st 0 d c = iprop((wLoc d ↦{qC (Fin.cast nCore_zero c)} m (wLoc d)) ∗ corePieces d (Fin.cast nCore_zero c) (m (oLoc d))) := rfl
theorem P_dn (d : Dev nD) (c : Fin ((K (F := F)).nCore 0)) :
    (P m).dn 0 d c = iprop((wLoc d ↦{qC (Fin.cast nCore_zero c)} m (wLoc d)) ∗ corePieces d (Fin.cast nCore_zero c) (G m d)) := rfl
theorem P_go (d : Dev nD) (c : Fin ((K (F := F)).nCore 0)) (i : Fin ((K (F := F)).nSub 0)) :
    (P m).go 0 d c i = iprop((wLoc d ↦{qT (Fin.cast nCore_zero c) (Fin.cast nSub_zero i)} m (wLoc d))
      ∗ tilePieces d (coordsV (Fin.cast bound_zero.symm (Fin.cast nCore_zero c)) (Fin.cast bound_one.symm (Fin.cast nSub_zero i))) (m (oLoc d))) := rfl
theorem P_td (d : Dev nD) (c : Fin ((K (F := F)).nCore 0)) (i : Fin ((K (F := F)).nSub 0)) :
    (P m).td 0 d c i = iprop((wLoc d ↦{qT (Fin.cast nCore_zero c) (Fin.cast nSub_zero i)} m (wLoc d))
      ∗ tilePieces d (coordsV (Fin.cast bound_zero.symm (Fin.cast nCore_zero c)) (Fin.cast bound_one.symm (Fin.cast nSub_zero i))) (G m d)) := rfl

/-! ## Families over a call's SparseCores and a SparseCore's subcores, over `Fin 2` and `Fin 16` -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands among its sixteen subcores -/

/-- A SparseCore's read share of the table is a remainder and a read share per subcore; its pieces of the result are its
    subcores' pieces. The remainder waits inside the wand and is joined with the subcores' shares when they come back. -/
theorem vecSplit : (K (F := F)).VecSplit' (P m) 0 := by
  intro d c
  show (P m).st 0 d c ⊢ |={Set.univ}=> iprop((bigSep Finset.univ fun i : Fin ((K (F := F)).nSub 0) => (P m).go 0 d c i)
      ∗ ((bigSep Finset.univ fun i : Fin ((K (F := F)).nSub 0) => (P m).td 0 d c i) -∗ (P m).dn 0 d c))
  rw [P_st, P_dn, bigSep_congr (fun i _ => P_go m d c i), bigSep_congr (fun i _ => P_td m d c i)]
  rw [bigSep_tasks (F := F) (fun i => iprop((wLoc d ↦{qT (Fin.cast nCore_zero c) i} m (wLoc d))
        ∗ tilePieces d (coordsV (Fin.cast bound_zero.symm (Fin.cast nCore_zero c)) (Fin.cast bound_one.symm i)) (m (oLoc d)))),
    bigSep_tasks (F := F) (fun i => iprop((wLoc d ↦{qT (Fin.cast nCore_zero c) i} m (wLoc d))
        ∗ tilePieces d (coordsV (Fin.cast bound_zero.symm (Fin.cast nCore_zero c)) (Fin.cast bound_one.symm i)) (G m d))),
    bigSep_sep', bigSep_sep']
  iintro ⟨Hw, Hp⟩
  ihave Hw' := (Transfers.pointsTo_toks_split (qC (Fin.cast nCore_zero c)) 16) $$ Hw
  icases Hw' with ⟨Hrem, Htoks⟩
  imodintro
  isplitl [Htoks Hp]
  · isplitl [Htoks]; · iexact Htoks
    iexact Hp
  iintro ⟨Htoks, Hp⟩
  isplitl [Hrem Htoks]
  · iapply (Transfers.pointsTo_toks_join (qC (Fin.cast nCore_zero c)) 16)
    isplitl [Hrem]; · iexact Hrem
    iexact Htoks
  iexact Hp

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's unscoped arrays are the three of @main. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores: the table's two read shares and the result's pieces at `f`. -/
theorem st0_eq (d : Dev nD) : (bigSep Finset.univ fun c : Fin ((K (F := F)).nCore 0) => (P m).st 0 d c)
    = iprop((bigSep Finset.univ fun c : Fin 2 => wLoc d ↦{qC c} m (wLoc d)) ∗ bigSep Finset.univ fun c : Fin 2 => corePieces d c (m (oLoc d))) := by
  rw [bigSep_congr (fun c _ => P_st m d c),
    bigSep_cores (F := F) (fun c => iprop((wLoc d ↦{qC c} m (wLoc d)) ∗ corePieces d c (m (oLoc d)))), bigSep_sep']
/-- and what it hands back. -/
theorem dn0_eq (d : Dev nD) : (bigSep Finset.univ fun c : Fin ((K (F := F)).nCore 0) => (P m).dn 0 d c)
    = iprop((bigSep Finset.univ fun c : Fin 2 => wLoc d ↦{qC c} m (wLoc d)) ∗ bigSep Finset.univ fun c : Fin 2 => corePieces d c (G m d)) := by
  rw [bigSep_congr (fun c _ => P_dn m d c),
    bigSep_cores (F := F) (fun c => iprop((wLoc d ↦{qC c} m (wLoc d)) ∗ corePieces d c (G m d))), bigSep_sep']

/-- what @main leaves the claim: the three arrays whole, the result holding `G` -/
abbrev FIN (d : Dev nD) : sProp 𝕄 := iprop((aLoc d ↦{fullShare} m (aLoc d)) ∗ (wLoc d ↦{fullShare} m (wLoc d)) ∗ oLoc d ↦{fullShare} G m d)

/-- @main on device `d`'s TensorCore: the one call. The integer argument and the table's remainder stay on the
    TensorCore; the table's read shares and the result's pieces go out and come back, the pieces holding `G`. -/
theorem hmain [FloatOps F]
    (hsplit : ∀ (d : Dev nD) (f : Buf (Elt F) (oLoc d)), (oLoc d ↦{fullShare} f : sProp 𝕄) = bigSep Finset.univ fun c : Fin 2 => corePieces d c f)
    (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hw, Ho⟩, -, -⟩, -⟩
  ihave Hw' := (Transfers.pointsTo_toks_split fullShare 2) $$ Hw
  icases Hw' with ⟨Hrem, Htoks⟩
  ihave Ho' := (Entails.of_eq (hsplit d (m (oLoc d)))) $$ Ho
  iapply ((K (F := F)).wp_run (D (F := F)) 𝒱 (EH := EH) (P := P m) κ d 0) $$ [Hst Htoks Ho' Ha Hrem]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  imodintro
  isplitl [Hst]; · iexact Hst
  isplitl [Ha]; · iexact Ha
  isplitl [Hrem Htoks]
  · iapply (Transfers.pointsTo_toks_join fullShare 2)
    isplitl [Hrem]; · iexact Hrem
    iexact Htoks
  iapply (Entails.of_eq (hsplit d (G m d)).symm); iexact Ho

/-! ## The claim off the final memory -/

def fq (d : Dev nD) (s' : Phys nD τ sig (Elt F)) : Prop := s'.mem.mem (oLoc d) = G m d ∧ s'.mem.mem (aLoc d) = m (aLoc d) ∧ s'.mem.mem (wLoc d) = m (wLoc d)

/-- An array held whole at the full share is what the memory holds. -/
theorem hfin (d : Dev nD) (s' : Phys nD τ sig (Elt F)) : iprop(FIN m d ∗ SI s') ⊢ (⌜fq m d s'⌝ : sProp 𝕄) := by
  iintro ⟨⟨Ha, Hw, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = G m c ∧ r.2.mem (aLoc c) = m (aLoc c) ∧ r.2.mem (wLoc c) = m (wLoc c)

/-- Every weakly fair execution of the device's threads from the launch memory ends, the result holding `G` and the two
    arguments unchanged — given the result array's cut into pieces and one subcore's body. -/
theorem run_main [FloatOps F] [∀ e, Nonempty (Elt F e)]
    (hsplit : ∀ (d : Dev nD) (f : Buf (Elt F) (oLoc d)), (oLoc d ↦{fullShare} f : sProp 𝕄) = bigSep Finset.univ fun c : Fin 2 => corePieces d c f)
    (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ hsplit) (fq m) (hfin m) (QC m) (fun _ h => h)

end Cert.Proof.KI

end
-- ==== Proof.KI.Rows.lean ====
/-
  The result array cut into the pieces the vector subcores write.

  The piece written by subcore `s` of SparseCore `c` at trip `k` is one whole batch entry of the result: the
  entries whose first coordinate is `256 s + 128 c + k`. As `(c, s, k)` ranges over `2 × 16 × 128` that number
  takes every value below 4096 exactly once (`k` is its remainder mod 128, `c` the next binary digit, `s` the
  quotient by 256), so the pieces are pairwise disjoint and together are the whole array, and holding the array is
  holding every piece.
-/
import proofs.«213483_g46943992545627_cont_8to1_c_492_13_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

/-! ## One piece: a batch entry -/

/-- The entries a piece addresses are those of the unit rectangle the kernel slices: dropping the unit axis
    re-indexes the same entries, and a slice of the whole array addresses its rectangle. -/
theorem rowSetK_eq (L : grid0.Coords) (k : Fin k0_t1_loop.trips) :
    rowSetK L k = (Rect.unit (s := S4096x200x128) (k0_off1 L k) S1x200x128.size (Facts₀.k0_off1_inb L k)).set := by
  show (((View.whole (main_v0_scv : Ref sig .scVector)).slice _).reshape _ _).set = _
  rw [View.set_reshape, View.set_slice]; exact Finset.map_refl

/-- A piece is one whole batch entry: membership only constrains the first coordinate. -/
theorem mem_rowSetK (L : grid0.Coords) (k : Fin k0_t1_loop.trips) (j : S4096x200x128.Idx) :
    j ∈ rowSetK L k ↔ (j 0).val = 256 * (L 1).val + 128 * (L 0).val + k.val := by
  rw [rowSetK_eq, Rect.mem_set_unit, k0_off1_eq]
  have h1 : (j 1).val < 200 := (j 1).isLt
  have h2 : (j 2).val < 128 := (j 2).isLt
  constructor
  · intro h
    have h0 := h 0
    simp only [Matrix.cons_val_zero] at h0
    omega
  · intro h
    refine Fin.forall_fin_succ.mpr ⟨?_, Fin.forall_fin_succ.mpr ⟨?_, Fin.forall_fin_succ.mpr ⟨?_, fun a => a.elim0⟩⟩⟩
    · show 256 * (L 1).val + 128 * (L 0).val + k.val ≤ (j 0).val ∧ (j 0).val < 256 * (L 1).val + 128 * (L 0).val + k.val + 1
      omega
    · show 0 ≤ (j 1).val ∧ (j 1).val < 0 + 200
      omega
    · show 0 ≤ (j 2).val ∧ (j 2).val < 0 + 128
      omega

/-! ## All the pieces -/

/-- The piece of SparseCore `c`, subcore `i`, trip `k`. -/
abbrev pieceSet (t : Fin 2 × Fin 16 × Fin k0_t1_loop.trips) : Finset S4096x200x128.Idx :=
  rowSetK (coordsV (Fin.cast bound_zero.symm t.1) (Fin.cast bound_one.symm t.2.1)) t.2.2

/-- The piece of `(c, i, k)` is batch entry `256 i + 128 c + k`. -/
theorem mem_pieceSet (t : Fin 2 × Fin 16 × Fin k0_t1_loop.trips) (j : S4096x200x128.Idx) :
    j ∈ pieceSet t ↔ (j 0).val = 256 * t.2.1.val + 128 * t.1.val + t.2.2.val :=
  mem_rowSetK _ _ j

/-- Two pieces with a common entry name the same batch entry, and `256 i + 128 c + k` determines its digits. -/
theorem pieces_disjoint : ∀ t ∈ (Finset.univ : Finset (Fin 2 × Fin 16 × Fin k0_t1_loop.trips)), ∀ t' ∈ (Finset.univ : Finset (Fin 2 × Fin 16 × Fin k0_t1_loop.trips)),
    t ≠ t' → Disjoint (pieceSet t) (pieceSet t') := by
  intro t _ t' _ hne
  refine Finset.disjoint_left.mpr fun j hj hj' => hne ?_
  rw [mem_pieceSet] at hj hj'
  obtain ⟨c, i, k⟩ := t
  obtain ⟨c', i', k'⟩ := t'
  have hc := c.isLt
  have hc' := c'.isLt
  have hi := i.isLt
  have hi' := i'.isLt
  have hk : k.val < 128 := trips_eq ▸ k.isLt
  have hk' : k'.val < 128 := trips_eq ▸ k'.isLt
  simp only at hj hj'
  have e1 : c = c' := Fin.ext (by omega)
  have e2 : i = i' := Fin.ext (by omega)
  have e3 : k = k' := Fin.ext (by omega)
  rw [e1, e2, e3]

/-- Every entry lies in the piece its batch number's digits name. -/
theorem pieces_cover : (Finset.univ : Finset (Fin 2 × Fin 16 × Fin k0_t1_loop.trips)).biUnion pieceSet = Finset.univ := by
  refine Finset.eq_univ_iff_forall.mpr fun j => ?_
  have h0 : (j 0).val < 4096 := (j 0).isLt
  have hc : (j 0).val / 128 % 2 < 2 := by omega
  have hi : (j 0).val / 256 < 16 := by omega
  have hk : (j 0).val % 128 < k0_t1_loop.trips := by rw [trips_eq]; omega
  have hm : j ∈ pieceSet ((⟨_, hc⟩ : Fin 2), (⟨_, hi⟩ : Fin 16), (⟨_, hk⟩ : Fin k0_t1_loop.trips)) := by
    rw [mem_pieceSet]
    show (j 0).val = 256 * ((j 0).val / 256) + 128 * ((j 0).val / 128 % 2) + (j 0).val % 128
    omega
  rw [Finset.mem_biUnion]; exact ⟨_, Finset.mem_univ _, hm⟩

/-! ## The whole array is the pieces -/

/-- Holding the result array whole is holding, for each SparseCore, each subcore's pieces. -/
theorem oPts_split (d : Dev nD) (f : Buf (Elt F) (oLoc d)) :
    (oLoc d ↦{fullShare} f : sProp 𝕄) = bigSep Finset.univ fun c : Fin 2 => corePieces d c f := by
  have e : (bigSep Finset.univ fun c : Fin 2 => corePieces d c f)
      = bigSep Finset.univ fun t : Fin 2 × Fin 16 × Fin k0_t1_loop.trips => (oLoc d ↦[pieceSet t]{fullShare} f : sProp 𝕄) := by
    rw [bigSep_univ_prod]
    refine bigSep_congr fun c _ => ?_
    rw [bigSep_univ_prod]
  rw [e, ← pointsTo_biUnion Finset.univ (ℓ := oLoc d) pieceSet pieces_disjoint, pieces_cover]; try rfl

end Cert.Proof.KI

end
-- ==== Proof.KI.Landed.lean ====
/-
  What a landed copy of the scratch leaves on a piece of the result. The trip's memref is one batch entry of the result
  with its unit axis dropped, so entry (x, z) of the 200 × 128 block sits at (b, x, z) of the result, b the trip's batch
  entry; the scratch holds the table's rows 0 … 199, so its entry (x, z) is the table's (x, z) — which is the table
  entry `Spec.src` assigns to (b, x, z). Hence the piece, overwritten with the scratch, holds `G` entry by entry.
-/
import proofs.«213483_g46943992545627_cont_8to1_c_492_13_alg».proof.Proof.KI.Setup
import Idealize.ShloMosaic.Lib.ValueLayout
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)

variable {F : FTy → Type}

variable (m : (ℓ : Loc nD τ sig) → Buf (Elt F) ℓ)

variable (d : Dev nD) (L : grid0.Coords)

/-- The table's first 200 rows, read through the kernel's own slice: what the scratch holds once the fetch has landed. -/
abbrev tab (d : Dev nD) : S200x128.Idx → Elt F .f32 := (wTop).view.read (Elt F) (m (wLoc d))

/-- Entry (x, z) of the trip's block is entry (batch entry, x, z) of the result: coordinate by coordinate, the slice's
    offset plus the block's own coordinate behind a leading 0. -/
theorem emb_oRowK_val (k : Fin k0_t1_loop.trips) (x : Fin 200) (z : Fin 128) (a : Fin 3) :
    (((oRowK L k).view.emb (ix2 x z)) a : Nat) = k0_off1 L k a + (ix3 (⟨0, Nat.one_pos⟩ : Fin 1) x z a : Nat) := by
  show ((Rect.unit (s := S4096x200x128) (k0_off1 L k) S1x200x128.size (Facts₀.k0_off1_inb L k)).emb
    (Shape.reshapeEquiv (Facts₀.squeezes_S1x200x128_S200x128).numel_eq (ix2 x z)) a : Nat) = _
  rw [reshapeEquiv_ix2_1ab, Rect.emb_apply, Rect.off_unit, Rect.stride_unit, Nat.one_mul]

/-- Entry (x, z) of the table's top block is entry (x, z) of the table. -/
theorem emb_wTop_val (x : Fin 200) (z : Fin 128) (a : Fin 2) :
    (((wTop).view.emb (ix2 x z)) a : Nat) = (ix2 x z a : Nat) := by
  show ((Rect.unit (s := S2048x128) ![0, 0] S200x128.size Facts₀.inb_S2048x128_S200x128_0_0).emb (ix2 x z) a : Nat) = _
  rw [Rect.emb_apply, Rect.off_unit, Rect.stride_unit, Nat.one_mul]
  match a with
  | ⟨0, _⟩ => exact Nat.zero_add _
  | ⟨1, _⟩ => exact Nat.zero_add _

/-- The table entry the result's entry (batch entry, x, z) holds is the top block's (x, z). -/
theorem src_emb (k : Fin k0_t1_loop.trips) (x : Fin 200) (z : Fin 128) :
    Cert.Spec.src ((oRowK L k).view.emb (ix2 x z)) = (wTop).view.emb (ix2 x z) := by
  funext a
  apply Fin.ext
  match a with
  | ⟨0, _⟩ =>
    rw [emb_wTop_val]
    show (((oRowK L k).view.emb (ix2 x z)) (1 : Fin 3) : Nat) = x.val
    rw [emb_oRowK_val, k0_off1_eq]
    exact Nat.zero_add _
  | ⟨1, _⟩ =>
    rw [emb_wTop_val]
    show (((oRowK L k).view.emb (ix2 x z)) (2 : Fin 3) : Nat) = z.val
    rw [emb_oRowK_val, k0_off1_eq]
    exact Nat.zero_add _

/-- The scratch's entry is the result's: `G` at the block's entry is the table's top block there. -/
theorem G_emb (k : Fin k0_t1_loop.trips) (y : S200x128.Idx) :
    G m d ((oRowK L k).view.emb y) = tab m d y := by
  obtain ⟨x, z, rfl⟩ : ∃ (x : Fin 200) (z : Fin 128), y = ix2 x z := ⟨y 0, y 1, eq_ix2 y⟩
  show Cert.Spec.tiled (m (wLoc d)) ((oRowK L k).view.emb (ix2 x z)) = (wTop).view.read (Elt F) (m (wLoc d)) (ix2 x z)
  rw [Cert.Spec.tiled_apply, src_emb, View.read_apply]
  exact (cast_eq _ _).symm

/-- A piece overwritten whole with the scratch's contents holds `G`, whatever it held. -/
theorem landed (k : Fin k0_t1_loop.trips) (f : Buf (Elt F) (oLoc d)) :
    ∀ j ∈ rowSetK L k, (oRowK L k).view.writes (Elt F) f [⟨Rect.whole S200x128, tab m d⟩] j = G m d j := by
  intro j hj
  obtain ⟨y, -, rfl⟩ := Finset.mem_map.mp hj
  have he : ((oRowK L k).view.slice (Rect.whole S200x128)).emb y = (oRowK L k).view.emb y := by
    rw [View.emb_slice]
    show (oRowK L k).view.emb ((Rect.whole S200x128).emb y) = _
    congr 1
    funext a; apply Fin.ext
    rw [Rect.emb_apply]
    show 0 + 1 * (y a : Nat) = (y a : Nat)
    omega
  rw [View.writes_singleton, ← he, View.write_emb_of_mem _ _ (Finset.mem_univ y), he, G_emb]
  exact cast_eq _ _

end Cert.Proof.KI

end
-- ==== Proof.KI.Tile.lean ====
/-
  One vector subcore's task, at symbolic coordinates: the fetch of the table's first 200 rows into the subcore's scratch
  and its wait, then 128 trips, each the copy of the scratch into one batch entry of the result and its wait. Every copy
  is local (the subcore that starts it waits for it, on a semaphore nobody else touches), so each runs under the
  schedule-free transfer protocol. The loop's invariant at trip `n`: the scratch holds the table's first 200 rows; the
  pieces of trips below `n` hold `G`, the others the launch contents. What a landed copy leaves on a piece is the scratch
  laid over it, which entry by entry is the table at the entry's own row and lane: `G`.
-/
import proofs.«213483_g46943992545627_cont_8to1_c_492_13_alg».proof.Proof.KI.Setup
import proofs.«213483_g46943992545627_cont_8to1_c_492_13_alg».proof.Proof.KI.Landed

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

/-- The subcore at grid coordinates `L`: its SparseCore and its number on the chip. -/
abbrev cV (L : grid0.Coords) : Fin τ.nSC := (L 0).castLE hcore0
abbrev jV (L : grid0.Coords) : Fin τ.nSub := (L 1).castLE hsub0

/-- The fetch's semaphore and the write-out's, as cells of the subcore. -/
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

/-- The subcore's own semaphores at zero are those two and the rest. -/
theorem ownSems0_V :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L))) fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩)]

/-- The subcore's own buffers are its scratch, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The table as the subcore's memref addresses it is the device's table. -/
theorem pts_w (q : PosShare TreeShare) (f : Buf (Elt F) (wLoc d)) :
    ((wV : Memref sig .scVector .hbm S2048x128 .f32).view.loc (V d (cV L) (jV L)) ↦{q} f : sProp 𝕄) = wLoc d ↦{q} f := by
  simp only [Memref.view_whole, View.set_whole]
/-- The scratch as its memref addresses it. -/
theorem pts_sT (f : Buf (Elt F) ((V d (cV L) (jV L)).loc cc0_scratch0)) :
    ((sT : Memref sig .scVector .vmem S200x128 .f32).view.loc (V d (cV L) (jV L)) ↦{fullShare} f : sProp 𝕄)
      = (V d (cV L) (jV L)).loc cc0_scratch0 ↦{fullShare} f := rfl
/-- A piece of the result as the trip's memref addresses it. -/
theorem pts_oRowK (k : Fin k0_t1_loop.trips) (f : Buf (Elt F) (oLoc d)) :
    ((oRowK L k).view.loc (V d (cV L) (jV L)) ↦[(oRowK L k).view.set]{fullShare} f : sProp 𝕄) = oLoc d ↦[rowSetK L k]{fullShare} f := rfl

/-! ## The loop's bookkeeping: which trips' pieces are written -/

/-- The trips from `k` on are trip `k` and the trips after it. -/
theorem todo_step (k : Fin k0_t1_loop.trips) :
    (Finset.univ.filter fun j : Fin k0_t1_loop.trips => k.val ≤ j.val) = insert k (Finset.univ.filter fun j : Fin k0_t1_loop.trips => k.val + 1 ≤ j.val) := by
  ext j; simp only [Finset.mem_filter, Finset.mem_univ, true_and, Finset.mem_insert, Fin.ext_iff]; omega
theorem notMem_todo (k : Fin k0_t1_loop.trips) : k ∉ (Finset.univ.filter fun j : Fin k0_t1_loop.trips => k.val + 1 ≤ j.val) := by
  simp only [Finset.mem_filter, Finset.mem_univ, true_and]; omega
/-- The trips before `k + 1` are trip `k` and the trips before it. -/
theorem done_step (k : Fin k0_t1_loop.trips) :
    (Finset.univ.filter fun j : Fin k0_t1_loop.trips => j.val < k.val + 1) = insert k (Finset.univ.filter fun j : Fin k0_t1_loop.trips => j.val < k.val) := by
  ext j; simp only [Finset.mem_filter, Finset.mem_univ, true_and, Finset.mem_insert, Fin.ext_iff]; omega
theorem notMem_done (k : Fin k0_t1_loop.trips) : k ∉ (Finset.univ.filter fun j : Fin k0_t1_loop.trips => j.val < k.val) := by
  simp only [Finset.mem_filter, Finset.mem_univ, true_and]; omega
/-- Before the first trip every trip is ahead and none is behind; after the last, the other way round. -/
theorem todo_zero : (Finset.univ.filter fun j : Fin k0_t1_loop.trips => 0 ≤ j.val) = Finset.univ := by
  ext j; simp
theorem done_zero : (Finset.univ.filter fun j : Fin k0_t1_loop.trips => j.val < 0) = ∅ := by
  ext j; simp
theorem todo_last : (Finset.univ.filter fun j : Fin k0_t1_loop.trips => k0_t1_loop.trips ≤ j.val) = ∅ := by
  ext j; simp only [Finset.mem_filter, Finset.mem_univ, true_and, Finset.notMem_empty, iff_false]; exact Nat.not_le.mpr j.isLt
theorem done_last : (Finset.univ.filter fun j : Fin k0_t1_loop.trips => j.val < k0_t1_loop.trips) = Finset.univ := by
  ext j; simp only [Finset.mem_filter, Finset.mem_univ, true_and, iff_true]; exact j.isLt

/-! ## The loop's invariant -/

/-- The loop's invariant before trip `n`. -/
def inv (O : CellTallies nD τ sig (HIx 1)) (W : Waits sig (HIx 1)) (n : Nat) (_ : PUnit) : sProp 𝕄 :=
  iprop(Transfers.MayWaits (V d (cV L) (jV L)) (none : HIx 1) O
    ∗ ((sT : Memref sig .scVector .vmem S200x128 .f32).view.loc (V d (cV L) (jV L)) ↦{fullShare} tab m d)
    ∗ (bigSep (Finset.univ.filter fun j : Fin k0_t1_loop.trips => j.val < n) fun j => oLoc d ↦[rowSetK L j]{fullShare} G m d)
    ∗ (bigSep (Finset.univ.filter fun j : Fin k0_t1_loop.trips => n ≤ j.val) fun j => oLoc d ↦[rowSetK L j]{fullShare} m (oLoc d))
    ∗ semVal (V d (cV L) (jV L), SemLoc.dma cc0_scoped1.sem) 0
    ∗ ∃ W', ⌜∀ p ∈ W', p ∈ W ∨ p.2 = none⌝ ∗ owes (V d (cV L) (jV L)) O W')

variable [FloatOps F]

/-- The task on the subcore at `L` of device `d`: from its read share of the table and its pieces of the result at the
    launch contents, to the same share and the pieces holding `G`; its scoped storage and semaphores back as they came. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ ((wLoc d ↦{q} m (wLoc d)) ∗ tilePieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L wV (Memref.isWhole_whole _) oV (Memref.isWhole_whole _) sT (Memref.isWhole_whole _) cc0_scoped0 cc0_scoped1)
          fun _ => iprop(((wLoc d ↦{q} m (wLoc d)) ∗ tilePieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hw, Ho⟩, ⟨⟨%fs, Hs⟩, Hbufs⟩, ⟨Hsem0, Hsem1, Hsems⟩, HO⟩
  ihave Hmw := ((K (F := F)).mayWaits_none (thr := V d (cV L) (jV L)) hO) $$ Hlv
  ihave Hw' := (Entails.of_eq (pts_w (F := F) d L q _).symm) $$ Hw
  ihave Hs' := (Entails.of_eq (pts_sT (F := F) d L _).symm) $$ Hs
  -- the fetch and its wait: the scratch, whatever it held, now holds the table's first 200 rows
  sl_exec
  have hland : View.write (Elt F) (sT : Memref sig .scVector .vmem S200x128 .f32).view fs (tile_body.sl.dma0 m d) Finset.univ = tab m d := by
    unfold tile_body.sl.dma0
    rw [ReadAs.apply_same]
    exact View.write_whole_univ _ _ _
  rw [hland]
  sl_for (inv m d L O (insert (SemLoc.dma cc0_scoped0.sem, (default : HIx 1)) W)) $$ [Hmw Hs' Ho Hsem1 HO]
  case region =>
    -- one trip: its piece leaves the pieces still ahead, is overwritten with the scratch, and joins the pieces behind
    intro k _
    unfold inv
    rw [todo_step k, SparseCore.bigSep_insert' (notMem_todo k), done_step k, SparseCore.bigSep_insert' (notMem_done k)]
    iintro ⟨Hmw, Hs, Hdone, ⟨Hrow, Htodo⟩, Hsem, %W', %hW', HO⟩
    ihave Hrow' := (Entails.of_eq (pts_oRowK (F := F) d L k _).symm) $$ Hrow
    sl_exec
    have hpay : tile_body.sl.dma0_1 m d = tab m d := by
      unfold tile_body.sl.dma0_1
      rw [ReadAs.apply_same]
      rfl
    ihave Hrow := (Entails.of_eq (show ((oRowK L k).view.loc (V d (cV L) (jV L)) ↦[(oRowK L k).view.set]{fullShare}
          (oRowK L k).view.writes (Elt F) (m (oLoc d)) [⟨Rect.whole S200x128, tile_body.sl.dma0_1 m d⟩] : sProp 𝕄)
        = oLoc d ↦[rowSetK L k]{fullShare} G m d from by
      rw [hpay]; exact pointsTo_congr (landed m d L k (m (oLoc d))))) $$ Hrow'
    sl_step
    isplitl [Hmw]; · iexact Hmw
    isplitl [Hs]; · iexact Hs
    isplitl [Hrow Hdone]
    · isplitl [Hrow]; · iexact Hrow
      iexact Hdone
    isplitl [Htodo]; · iexact Htodo
    isplitl [Hsem]; · iexact Hsem
    iexists (insert (SemLoc.dma cc0_scoped1.sem, (default : HIx 1)) W'); isplitr
    · ipureintro; intro p hp
      rcases Finset.mem_insert.mp hp with hp | hp
      · exact .inr (hp ▸ rfl)
      · exact hW' p hp
    · iexact HO
  · -- before the first trip: nothing behind, every piece ahead
    unfold inv
    rw [done_zero, todo_zero, bigSep_empty]
    isplitl [Hmw]; · iexact Hmw
    isplitl [Hs']; · iexact Hs'
    isplitr; · iempintro
    isplitl [Ho]; · iexact Ho
    isplitl [Hsem1]; · iexact Hsem1
    iexists _; isplitr
    · ipureintro; exact fun p hp => .inl hp
    · iexact HO
  -- after the last trip: every piece behind
  iintro %_ HI
  unfold inv
  rw [done_last, todo_last, bigSep_empty]
  icases HI with ⟨-, Hs, Hdone, -, Hsem1, %W', %hW', HO⟩
  sl_exec
  sl_step
  isplitl [Hw' Hdone]
  · isplitl [Hw']; · iapply (Entails.of_eq (pts_w (F := F) d L q _)); iexact Hw'
    iexact Hdone
  isplitl [Hs Hbufs]
  · isplitl [Hs]; · iexists _; iexact Hs
    iexact Hbufs
  isplitl [Hsem0 Hsem1 Hsems]
  · isplitl [Hsem0]; · iexact Hsem0
    isplitl [Hsem1]; · iexact Hsem1
    iexact Hsems
  iexists W'; isplitr
  · ipureintro; intro p hp
    rcases hW' p hp with h | h
    · rcases Finset.mem_insert.mp h with h | h
      · exact .inr (h ▸ rfl)
      · exact .inl h
    · exact .inr h
  · iexact HO

end Tile

/-! ## The launch theorem's obligation for a subcore's task -/

/-- The body table's row for a vector subcore is the kernel function at the subcore's coordinates. -/
theorem defs₀_vector [FloatOps F] (c : Fin τ.nSC) (s : Fin τ.nSub) :
    defs₀ (F := F) (.scVector c s) 0 ()
      = SparseCore.onTile hcore0 hsub0 (fun c s => cc0_k (coordsV c s)
          wV (Memref.isWhole_whole _) oV (Memref.isWhole_whole _) sT (Memref.isWhole_whole _) cc0_scoped0 cc0_scoped1) ⟨⟩ c s := rfl

/-- Waits recorded at no call's index are waits recorded at no call's index or at this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task, as the launch theorem asks for it. -/
theorem tileObl [FloatOps F] (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF _ O W hO).trans (wp_mono frame _ _ fun _ => obl_post)

end Cert.Proof.KI

end
-- ==== Proof.KI.Run.lean ====
/-
  The idealized kernel's run, assembled: the launch theorem applied to the subcore's task (every subcore ends with its
  pieces of the result holding `G`) and to the partition of the result into those pieces. Every weakly fair execution
  of the device's threads terminates, nothing faulting, with the result array at `Spec.tiled` of the launch memory's
  table and both arguments unchanged.
-/
import proofs.«213483_g46943992545627_cont_8to1_c_492_13_alg».proof.Proof.KI.Launch
import proofs.«213483_g46943992545627_cont_8to1_c_492_13_alg».proof.Proof.KI.Rows
import proofs.«213483_g46943992545627_cont_8to1_c_492_13_alg».proof.Proof.KI.Tile

noncomputable section

namespace Cert.Proof.KI

open Cert.KernelIdeal Cert.KernelIdeal.Gen
open Idealize.ShloMosaic Idealize.SL.Sem

variable {F : FTy → Type}

theorem run [FloatOps F] [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_main m ρ (fun d f => oPts_split d f) (tileObl m facts)

end Cert.Proof.KI

end
-- ==== Proof.KB.Setup.lean ====
/-
  The kernel, as printed, as the SparseCore launch theorem sees it, and what its handshakes carry.

  Each of the 32 vector subcores (2 SparseCores × 16) copies rows 0 … 199 of the table into its own scratch, then copies
  that scratch into 128 consecutive batch entries of the result: subcore `s` of SparseCore `c` at trip `k` writes batch
  entry `256 s + 128 c + k`. So every subcore READS the same 200 table rows — the table goes out as read shares, one per
  SparseCore, split again one per subcore — and WRITES batch entries nobody else touches — the result goes out cut into
  one piece per (SparseCore, subcore, trip), each piece spelt as the kernel itself slices it. What comes back is the same
  pieces holding `Spec.tiled` of the table. Stated for any float instance: no entry is computed with.
-/
import proofs.«213483_g46943992545627_cont_8to1_c_492_13_alg».proof.Defs
import proofs.«213483_g46943992545627_cont_8to1_c_492_13_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«213483_g46943992545627_cont_8to1_c_492_13_alg».proof.Proof.Gen.Kernel
import proofs.«213483_g46943992545627_cont_8to1_c_492_13_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The integer argument (never read), the table, the result, as locations of device `d`. -/
abbrev aLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

/-- The table and the result as a vector subcore names them, and a subcore's scratch. -/
abbrev wV : Memref sig .scVector .hbm S2048x128 .f32 := Memref.whole main_arg1_scv
abbrev oV : Memref sig .scVector .hbm S4096x200x128 .f32 := Memref.whole main_v0_scv
abbrev sT : Memref sig .scVector .vmem S200x128 .f32 := Memref.whole cc0_scratch0

/-- A subcore's grid coordinates from its SparseCore and its number. -/
def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl
theorem trips_eq : k0_t1_loop.trips = 128 := by decide

/-- The table's first 200 rows, as the kernel slices them. -/
abbrev wTop : Memref sig .scVector .hbm S200x128 .f32 :=
  (wV : Memref sig .scVector .hbm S2048x128 .f32).slice (Rect.unit (s := S2048x128) ![0, 0] S200x128.size Facts₀.inb_S2048x128_S200x128_0_0) (fun _ => rfl)

/-- The batch entry the subcore at `L` writes at trip `k`, as the kernel slices it: one batch entry, its unit axis dropped. -/
abbrev oRowK (L : grid0.Coords) (k : Fin k0_t1_loop.trips) : Memref sig .scVector .hbm S200x128 .f32 :=
  ((oV : Memref sig .scVector .hbm S4096x200x128 .f32).slice (Rect.unit (s := S4096x200x128) (k0_off1 L k) S1x200x128.size (Facts₀.k0_off1_inb L k)) (fun _ => rfl)).squeeze
    S200x128 Facts₀.squeezes_S1x200x128_S200x128
/-- The entries of the result in that batch entry. -/
abbrev rowSetK (L : grid0.Coords) (k : Fin k0_t1_loop.trips) : Finset S4096x200x128.Idx := (oRowK L k).view.set

/-- The result as a function of the launch memory's table. -/
abbrev G (d : Dev nD) : Buf (Elt F) (oLoc d) := Cert.Spec.tiled (m (wLoc d))

/-! ## The read shares of the table -/

/-- SparseCore `c`'s share of the table, and subcore `i`'s share of that. -/
abbrev qC (c : Fin 2) : PosShare TreeShare := shareTok fullShare 2 c
abbrev qT (c : Fin 2) (i : Fin 16) : PosShare TreeShare := shareTok (qC c) 16 i

/-! ## What the handshakes carry -/

/-- The pieces of the result a subcore is handed, all holding `f`. -/
abbrev tilePieces (d : Dev nD) (L : grid0.Coords) (f : Buf (Elt F) (oLoc d)) : sProp 𝕄 :=
  bigSep Finset.univ fun k : Fin k0_t1_loop.trips => oLoc d ↦[rowSetK L k]{fullShare} f
/-- The pieces a SparseCore is handed: its sixteen subcores'. -/
abbrev corePieces (d : Dev nD) (c : Fin 2) (f : Buf (Elt F) (oLoc d)) : sProp 𝕄 :=
  bigSep Finset.univ fun i : Fin 16 => tilePieces d (coordsV (Fin.cast bound_zero.symm c) (Fin.cast bound_one.symm i)) f

/-- The one call hands SparseCore `c` its share of the table and its pieces of the result at the launch contents, and each
    subcore its share of that share and its own pieces; back come the same, the pieces holding `G`. -/
def P : (K (F := F)).Pay (nD := nD) (Val := Elt F) (Name := ℕ) (U := UU) where
  st := fun q d c => match q with
    | 0 => iprop((wLoc d ↦{qC (Fin.cast nCore_zero c)} m (wLoc d)) ∗ corePieces d (Fin.cast nCore_zero c) (m (oLoc d)))
  dn := fun q d c => match q with
    | 0 => iprop((wLoc d ↦{qC (Fin.cast nCore_zero c)} m (wLoc d)) ∗ corePieces d (Fin.cast nCore_zero c) (G m d))
  go := fun q d c i => match q with
    | 0 => iprop((wLoc d ↦{qT (Fin.cast nCore_zero c) (Fin.cast nSub_zero i)} m (wLoc d))
        ∗ tilePieces d (coordsV (Fin.cast bound_zero.symm (Fin.cast nCore_zero c)) (Fin.cast bound_one.symm (Fin.cast nSub_zero i))) (m (oLoc d)))
  td := fun q d c i => match q with
    | 0 => iprop((wLoc d ↦{qT (Fin.cast nCore_zero c) (Fin.cast nSub_zero i)} m (wLoc d))
        ∗ tilePieces d (coordsV (Fin.cast bound_zero.symm (Fin.cast nCore_zero c)) (Fin.cast bound_one.symm (Fin.cast nSub_zero i))) (G m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.KB.Launch.lean ====
/-
  The launch around the subcores' bodies.

  The TensorCore's @main is one call. It sets the integer argument aside, cuts the table's full share into a remainder
  and one read share per SparseCore, and cuts the result array into the pieces each (SparseCore, subcore, trip) writes;
  a SparseCore's share of the table is cut again into a remainder and one read share per subcore, and its pieces of the
  result are by definition its sixteen subcores'. After the call the same shares come back, joined in the reverse order,
  the pieces now holding the tiling of the table. The kernel's own semaphores carry no rounds, so the launch element is the
  handshakes' rounds alone. The claim is read off the final memory by agreement
  of each of the three whole arrays with what is held of it.
-/
import proofs.«213483_g46943992545627_cont_8to1_c_492_13_alg».proof.Proof.KB.Setup
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## What the handshakes carry, as equations -/

theorem P_st (d : Dev nD) (c : Fin ((K (F := F)).nCore 0)) :
    (P m).st 0 d c = iprop((wLoc d ↦{qC (Fin.cast nCore_zero c)} m (wLoc d)) ∗ corePieces d (Fin.cast nCore_zero c) (m (oLoc d))) := rfl
theorem P_dn (d : Dev nD) (c : Fin ((K (F := F)).nCore 0)) :
    (P m).dn 0 d c = iprop((wLoc d ↦{qC (Fin.cast nCore_zero c)} m (wLoc d)) ∗ corePieces d (Fin.cast nCore_zero c) (G m d)) := rfl
theorem P_go (d : Dev nD) (c : Fin ((K (F := F)).nCore 0)) (i : Fin ((K (F := F)).nSub 0)) :
    (P m).go 0 d c i = iprop((wLoc d ↦{qT (Fin.cast nCore_zero c) (Fin.cast nSub_zero i)} m (wLoc d))
      ∗ tilePieces d (coordsV (Fin.cast bound_zero.symm (Fin.cast nCore_zero c)) (Fin.cast bound_one.symm (Fin.cast nSub_zero i))) (m (oLoc d))) := rfl
theorem P_td (d : Dev nD) (c : Fin ((K (F := F)).nCore 0)) (i : Fin ((K (F := F)).nSub 0)) :
    (P m).td 0 d c i = iprop((wLoc d ↦{qT (Fin.cast nCore_zero c) (Fin.cast nSub_zero i)} m (wLoc d))
      ∗ tilePieces d (coordsV (Fin.cast bound_zero.symm (Fin.cast nCore_zero c)) (Fin.cast bound_one.symm (Fin.cast nSub_zero i))) (G m d)) := rfl

/-! ## Families over a call's SparseCores and a SparseCore's subcores, over `Fin 2` and `Fin 16` -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands among its sixteen subcores -/

/-- A SparseCore's read share of the table is a remainder and a read share per subcore; its pieces of the result are its
    subcores' pieces. The remainder waits inside the wand and is joined with the subcores' shares when they come back. -/
theorem vecSplit : (K (F := F)).VecSplit' (P m) 0 := by
  intro d c
  show (P m).st 0 d c ⊢ |={Set.univ}=> iprop((bigSep Finset.univ fun i : Fin ((K (F := F)).nSub 0) => (P m).go 0 d c i)
      ∗ ((bigSep Finset.univ fun i : Fin ((K (F := F)).nSub 0) => (P m).td 0 d c i) -∗ (P m).dn 0 d c))
  rw [P_st, P_dn, bigSep_congr (fun i _ => P_go m d c i), bigSep_congr (fun i _ => P_td m d c i)]
  rw [bigSep_tasks (F := F) (fun i => iprop((wLoc d ↦{qT (Fin.cast nCore_zero c) i} m (wLoc d))
        ∗ tilePieces d (coordsV (Fin.cast bound_zero.symm (Fin.cast nCore_zero c)) (Fin.cast bound_one.symm i)) (m (oLoc d)))),
    bigSep_tasks (F := F) (fun i => iprop((wLoc d ↦{qT (Fin.cast nCore_zero c) i} m (wLoc d))
        ∗ tilePieces d (coordsV (Fin.cast bound_zero.symm (Fin.cast nCore_zero c)) (Fin.cast bound_one.symm i)) (G m d))),
    bigSep_sep', bigSep_sep']
  iintro ⟨Hw, Hp⟩
  ihave Hw' := (Transfers.pointsTo_toks_split (qC (Fin.cast nCore_zero c)) 16) $$ Hw
  icases Hw' with ⟨Hrem, Htoks⟩
  imodintro
  isplitl [Htoks Hp]
  · isplitl [Htoks]; · iexact Htoks
    iexact Hp
  iintro ⟨Htoks, Hp⟩
  isplitl [Hrem Htoks]
  · iapply (Transfers.pointsTo_toks_join (qC (Fin.cast nCore_zero c)) 16)
    isplitl [Hrem]; · iexact Hrem
    iexact Htoks
  iexact Hp

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's unscoped arrays are the three of @main. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores: the table's two read shares and the result's pieces at `f`. -/
theorem st0_eq (d : Dev nD) : (bigSep Finset.univ fun c : Fin ((K (F := F)).nCore 0) => (P m).st 0 d c)
    = iprop((bigSep Finset.univ fun c : Fin 2 => wLoc d ↦{qC c} m (wLoc d)) ∗ bigSep Finset.univ fun c : Fin 2 => corePieces d c (m (oLoc d))) := by
  rw [bigSep_congr (fun c _ => P_st m d c),
    bigSep_cores (F := F) (fun c => iprop((wLoc d ↦{qC c} m (wLoc d)) ∗ corePieces d c (m (oLoc d)))), bigSep_sep']
/-- and what it hands back. -/
theorem dn0_eq (d : Dev nD) : (bigSep Finset.univ fun c : Fin ((K (F := F)).nCore 0) => (P m).dn 0 d c)
    = iprop((bigSep Finset.univ fun c : Fin 2 => wLoc d ↦{qC c} m (wLoc d)) ∗ bigSep Finset.univ fun c : Fin 2 => corePieces d c (G m d)) := by
  rw [bigSep_congr (fun c _ => P_dn m d c),
    bigSep_cores (F := F) (fun c => iprop((wLoc d ↦{qC c} m (wLoc d)) ∗ corePieces d c (G m d))), bigSep_sep']

/-- what @main leaves the claim: the three arrays whole, the result holding `G` -/
abbrev FIN (d : Dev nD) : sProp 𝕄 := iprop((aLoc d ↦{fullShare} m (aLoc d)) ∗ (wLoc d ↦{fullShare} m (wLoc d)) ∗ oLoc d ↦{fullShare} G m d)

/-- @main on device `d`'s TensorCore: the one call. The integer argument and the table's remainder stay on the
    TensorCore; the table's read shares and the result's pieces go out and come back, the pieces holding `G`. -/
theorem hmain [FloatOps F]
    (hsplit : ∀ (d : Dev nD) (f : Buf (Elt F) (oLoc d)), (oLoc d ↦{fullShare} f : sProp 𝕄) = bigSep Finset.univ fun c : Fin 2 => corePieces d c f)
    (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hw, Ho⟩, -, -⟩, -⟩
  ihave Hw' := (Transfers.pointsTo_toks_split fullShare 2) $$ Hw
  icases Hw' with ⟨Hrem, Htoks⟩
  ihave Ho' := (Entails.of_eq (hsplit d (m (oLoc d)))) $$ Ho
  iapply ((K (F := F)).wp_run (D (F := F)) 𝒱 (EH := EH) (P := P m) κ d 0) $$ [Hst Htoks Ho' Ha Hrem]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  imodintro
  isplitl [Hst]; · iexact Hst
  isplitl [Ha]; · iexact Ha
  isplitl [Hrem Htoks]
  · iapply (Transfers.pointsTo_toks_join fullShare 2)
    isplitl [Hrem]; · iexact Hrem
    iexact Htoks
  iapply (Entails.of_eq (hsplit d (G m d)).symm); iexact Ho

/-! ## The claim off the final memory -/

def fq (d : Dev nD) (s' : Phys nD τ sig (Elt F)) : Prop := s'.mem.mem (oLoc d) = G m d ∧ s'.mem.mem (aLoc d) = m (aLoc d) ∧ s'.mem.mem (wLoc d) = m (wLoc d)

/-- An array held whole at the full share is what the memory holds. -/
theorem hfin (d : Dev nD) (s' : Phys nD τ sig (Elt F)) : iprop(FIN m d ∗ SI s') ⊢ (⌜fq m d s'⌝ : sProp 𝕄) := by
  iintro ⟨⟨Ha, Hw, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = G m c ∧ r.2.mem (aLoc c) = m (aLoc c) ∧ r.2.mem (wLoc c) = m (wLoc c)

/-- Every weakly fair execution of the device's threads from the launch memory ends, the result holding `G` and the two
    arguments unchanged — given the result array's cut into pieces and one subcore's body. -/
theorem run_main [FloatOps F] [∀ e, Nonempty (Elt F e)]
    (hsplit : ∀ (d : Dev nD) (f : Buf (Elt F) (oLoc d)), (oLoc d ↦{fullShare} f : sProp 𝕄) = bigSep Finset.univ fun c : Fin 2 => corePieces d c f)
    (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ hsplit) (fq m) (hfin m) (QC m) (fun _ h => h)

end Cert.Proof.KB

end
-- ==== Proof.KB.Rows.lean ====
/-
  The result array cut into the pieces the vector subcores write.

  The piece written by subcore `s` of SparseCore `c` at trip `k` is one whole batch entry of the result: the
  entries whose first coordinate is `256 s + 128 c + k`. As `(c, s, k)` ranges over `2 × 16 × 128` that number
  takes every value below 4096 exactly once (`k` is its remainder mod 128, `c` the next binary digit, `s` the
  quotient by 256), so the pieces are pairwise disjoint and together are the whole array, and holding the array is
  holding every piece.
-/
import proofs.«213483_g46943992545627_cont_8to1_c_492_13_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

/-! ## One piece: a batch entry -/

/-- The entries a piece addresses are those of the unit rectangle the kernel slices: dropping the unit axis
    re-indexes the same entries, and a slice of the whole array addresses its rectangle. -/
theorem rowSetK_eq (L : grid0.Coords) (k : Fin k0_t1_loop.trips) :
    rowSetK L k = (Rect.unit (s := S4096x200x128) (k0_off1 L k) S1x200x128.size (Facts₀.k0_off1_inb L k)).set := by
  show (((View.whole (main_v0_scv : Ref sig .scVector)).slice _).reshape _ _).set = _
  rw [View.set_reshape, View.set_slice]; exact Finset.map_refl

/-- A piece is one whole batch entry: membership only constrains the first coordinate. -/
theorem mem_rowSetK (L : grid0.Coords) (k : Fin k0_t1_loop.trips) (j : S4096x200x128.Idx) :
    j ∈ rowSetK L k ↔ (j 0).val = 256 * (L 1).val + 128 * (L 0).val + k.val := by
  rw [rowSetK_eq, Rect.mem_set_unit, k0_off1_eq]
  have h1 : (j 1).val < 200 := (j 1).isLt
  have h2 : (j 2).val < 128 := (j 2).isLt
  constructor
  · intro h
    have h0 := h 0
    simp only [Matrix.cons_val_zero] at h0
    omega
  · intro h
    refine Fin.forall_fin_succ.mpr ⟨?_, Fin.forall_fin_succ.mpr ⟨?_, Fin.forall_fin_succ.mpr ⟨?_, fun a => a.elim0⟩⟩⟩
    · show 256 * (L 1).val + 128 * (L 0).val + k.val ≤ (j 0).val ∧ (j 0).val < 256 * (L 1).val + 128 * (L 0).val + k.val + 1
      omega
    · show 0 ≤ (j 1).val ∧ (j 1).val < 0 + 200
      omega
    · show 0 ≤ (j 2).val ∧ (j 2).val < 0 + 128
      omega

/-! ## All the pieces -/

/-- The piece of SparseCore `c`, subcore `i`, trip `k`. -/
abbrev pieceSet (t : Fin 2 × Fin 16 × Fin k0_t1_loop.trips) : Finset S4096x200x128.Idx :=
  rowSetK (coordsV (Fin.cast bound_zero.symm t.1) (Fin.cast bound_one.symm t.2.1)) t.2.2

/-- The piece of `(c, i, k)` is batch entry `256 i + 128 c + k`. -/
theorem mem_pieceSet (t : Fin 2 × Fin 16 × Fin k0_t1_loop.trips) (j : S4096x200x128.Idx) :
    j ∈ pieceSet t ↔ (j 0).val = 256 * t.2.1.val + 128 * t.1.val + t.2.2.val :=
  mem_rowSetK _ _ j

/-- Two pieces with a common entry name the same batch entry, and `256 i + 128 c + k` determines its digits. -/
theorem pieces_disjoint : ∀ t ∈ (Finset.univ : Finset (Fin 2 × Fin 16 × Fin k0_t1_loop.trips)), ∀ t' ∈ (Finset.univ : Finset (Fin 2 × Fin 16 × Fin k0_t1_loop.trips)),
    t ≠ t' → Disjoint (pieceSet t) (pieceSet t') := by
  intro t _ t' _ hne
  refine Finset.disjoint_left.mpr fun j hj hj' => hne ?_
  rw [mem_pieceSet] at hj hj'
  obtain ⟨c, i, k⟩ := t
  obtain ⟨c', i', k'⟩ := t'
  have hc := c.isLt
  have hc' := c'.isLt
  have hi := i.isLt
  have hi' := i'.isLt
  have hk : k.val < 128 := trips_eq ▸ k.isLt
  have hk' : k'.val < 128 := trips_eq ▸ k'.isLt
  simp only at hj hj'
  have e1 : c = c' := Fin.ext (by omega)
  have e2 : i = i' := Fin.ext (by omega)
  have e3 : k = k' := Fin.ext (by omega)
  rw [e1, e2, e3]

/-- Every entry lies in the piece its batch number's digits name. -/
theorem pieces_cover : (Finset.univ : Finset (Fin 2 × Fin 16 × Fin k0_t1_loop.trips)).biUnion pieceSet = Finset.univ := by
  refine Finset.eq_univ_iff_forall.mpr fun j => ?_
  have h0 : (j 0).val < 4096 := (j 0).isLt
  have hc : (j 0).val / 128 % 2 < 2 := by omega
  have hi : (j 0).val / 256 < 16 := by omega
  have hk : (j 0).val % 128 < k0_t1_loop.trips := by rw [trips_eq]; omega
  have hm : j ∈ pieceSet ((⟨_, hc⟩ : Fin 2), (⟨_, hi⟩ : Fin 16), (⟨_, hk⟩ : Fin k0_t1_loop.trips)) := by
    rw [mem_pieceSet]
    show (j 0).val = 256 * ((j 0).val / 256) + 128 * ((j 0).val / 128 % 2) + (j 0).val % 128
    omega
  rw [Finset.mem_biUnion]; exact ⟨_, Finset.mem_univ _, hm⟩

/-! ## The whole array is the pieces -/

/-- Holding the result array whole is holding, for each SparseCore, each subcore's pieces. -/
theorem oPts_split (d : Dev nD) (f : Buf (Elt F) (oLoc d)) :
    (oLoc d ↦{fullShare} f : sProp 𝕄) = bigSep Finset.univ fun c : Fin 2 => corePieces d c f := by
  have e : (bigSep Finset.univ fun c : Fin 2 => corePieces d c f)
      = bigSep Finset.univ fun t : Fin 2 × Fin 16 × Fin k0_t1_loop.trips => (oLoc d ↦[pieceSet t]{fullShare} f : sProp 𝕄) := by
    rw [bigSep_univ_prod]
    refine bigSep_congr fun c _ => ?_
    rw [bigSep_univ_prod]
  rw [e, ← pointsTo_biUnion Finset.univ (ℓ := oLoc d) pieceSet pieces_disjoint, pieces_cover]; try rfl

end Cert.Proof.KB

end
-- ==== Proof.KB.Landed.lean ====
/-
  What a landed copy of the scratch leaves on a piece of the result. The trip's memref is one batch entry of the result
  with its unit axis dropped, so entry (x, z) of the 200 × 128 block sits at (b, x, z) of the result, b the trip's batch
  entry; the scratch holds the table's rows 0 … 199, so its entry (x, z) is the table's (x, z) — which is the table
  entry `Spec.src` assigns to (b, x, z). Hence the piece, overwritten with the scratch, holds `G` entry by entry.
-/
import proofs.«213483_g46943992545627_cont_8to1_c_492_13_alg».proof.Proof.KB.Setup
import Idealize.ShloMosaic.Lib.ValueLayout
import Idealize.ShloMosaic.Lib.Writes

noncomputable section

namespace Cert.Proof.KB

open Cert.Kernel Cert.Kernel.Gen

open Idealize.ShloMosaic Idealize.ShloMosaic.ValueIdx
open Idealize.ShloMosaic.SparseCore (S V T)

variable {F : FTy → Type}

variable (m : (ℓ : Loc nD τ sig) → Buf (Elt F) ℓ)

variable (d : Dev nD) (L : grid0.Coords)

/-- The table's first 200 rows, read through the kernel's own slice: what the scratch holds once the fetch has landed. -/
abbrev tab (d : Dev nD) : S200x128.Idx → Elt F .f32 := (wTop).view.read (Elt F) (m (wLoc d))

/-- Entry (x, z) of the trip's block is entry (batch entry, x, z) of the result: coordinate by coordinate, the slice's
    offset plus the block's own coordinate behind a leading 0. -/
theorem emb_oRowK_val (k : Fin k0_t1_loop.trips) (x : Fin 200) (z : Fin 128) (a : Fin 3) :
    (((oRowK L k).view.emb (ix2 x z)) a : Nat) = k0_off1 L k a + (ix3 (⟨0, Nat.one_pos⟩ : Fin 1) x z a : Nat) := by
  show ((Rect.unit (s := S4096x200x128) (k0_off1 L k) S1x200x128.size (Facts₀.k0_off1_inb L k)).emb
    (Shape.reshapeEquiv (Facts₀.squeezes_S1x200x128_S200x128).numel_eq (ix2 x z)) a : Nat) = _
  rw [reshapeEquiv_ix2_1ab, Rect.emb_apply, Rect.off_unit, Rect.stride_unit, Nat.one_mul]

/-- Entry (x, z) of the table's top block is entry (x, z) of the table. -/
theorem emb_wTop_val (x : Fin 200) (z : Fin 128) (a : Fin 2) :
    (((wTop).view.emb (ix2 x z)) a : Nat) = (ix2 x z a : Nat) := by
  show ((Rect.unit (s := S2048x128) ![0, 0] S200x128.size Facts₀.inb_S2048x128_S200x128_0_0).emb (ix2 x z) a : Nat) = _
  rw [Rect.emb_apply, Rect.off_unit, Rect.stride_unit, Nat.one_mul]
  match a with
  | ⟨0, _⟩ => exact Nat.zero_add _
  | ⟨1, _⟩ => exact Nat.zero_add _

/-- The table entry the result's entry (batch entry, x, z) holds is the top block's (x, z). -/
theorem src_emb (k : Fin k0_t1_loop.trips) (x : Fin 200) (z : Fin 128) :
    Cert.Spec.src ((oRowK L k).view.emb (ix2 x z)) = (wTop).view.emb (ix2 x z) := by
  funext a
  apply Fin.ext
  match a with
  | ⟨0, _⟩ =>
    rw [emb_wTop_val]
    show (((oRowK L k).view.emb (ix2 x z)) (1 : Fin 3) : Nat) = x.val
    rw [emb_oRowK_val, k0_off1_eq]
    exact Nat.zero_add _
  | ⟨1, _⟩ =>
    rw [emb_wTop_val]
    show (((oRowK L k).view.emb (ix2 x z)) (2 : Fin 3) : Nat) = z.val
    rw [emb_oRowK_val, k0_off1_eq]
    exact Nat.zero_add _

/-- The scratch's entry is the result's: `G` at the block's entry is the table's top block there. -/
theorem G_emb (k : Fin k0_t1_loop.trips) (y : S200x128.Idx) :
    G m d ((oRowK L k).view.emb y) = tab m d y := by
  obtain ⟨x, z, rfl⟩ : ∃ (x : Fin 200) (z : Fin 128), y = ix2 x z := ⟨y 0, y 1, eq_ix2 y⟩
  show Cert.Spec.tiled (m (wLoc d)) ((oRowK L k).view.emb (ix2 x z)) = (wTop).view.read (Elt F) (m (wLoc d)) (ix2 x z)
  rw [Cert.Spec.tiled_apply, src_emb, View.read_apply]
  exact (cast_eq _ _).symm

/-- A piece overwritten whole with the scratch's contents holds `G`, whatever it held. -/
theorem landed (k : Fin k0_t1_loop.trips) (f : Buf (Elt F) (oLoc d)) :
    ∀ j ∈ rowSetK L k, (oRowK L k).view.writes (Elt F) f [⟨Rect.whole S200x128, tab m d⟩] j = G m d j := by
  intro j hj
  obtain ⟨y, -, rfl⟩ := Finset.mem_map.mp hj
  have he : ((oRowK L k).view.slice (Rect.whole S200x128)).emb y = (oRowK L k).view.emb y := by
    rw [View.emb_slice]
    show (oRowK L k).view.emb ((Rect.whole S200x128).emb y) = _
    congr 1
    funext a; apply Fin.ext
    rw [Rect.emb_apply]
    show 0 + 1 * (y a : Nat) = (y a : Nat)
    omega
  rw [View.writes_singleton, ← he, View.write_emb_of_mem _ _ (Finset.mem_univ y), he, G_emb]
  exact cast_eq _ _

end Cert.Proof.KB

end
-- ==== Proof.KB.Tile.lean ====
/-
  One vector subcore's task, at symbolic coordinates: the fetch of the table's first 200 rows into the subcore's scratch
  and its wait, then 128 trips, each the copy of the scratch into one batch entry of the result and its wait. Every copy
  is local (the subcore that starts it waits for it, on a semaphore nobody else touches), so each runs under the
  schedule-free transfer protocol. The loop's invariant at trip `n`: the scratch holds the table's first 200 rows; the
  pieces of trips below `n` hold `G`, the others the launch contents. What a landed copy leaves on a piece is the scratch
  laid over it, which entry by entry is the table at the entry's own row and lane: `G`.
-/
import proofs.«213483_g46943992545627_cont_8to1_c_492_13_alg».proof.Proof.KB.Setup
import proofs.«213483_g46943992545627_cont_8to1_c_492_13_alg».proof.Proof.KB.Landed

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

/-- The subcore at grid coordinates `L`: its SparseCore and its number on the chip. -/
abbrev cV (L : grid0.Coords) : Fin τ.nSC := (L 0).castLE hcore0
abbrev jV (L : grid0.Coords) : Fin τ.nSub := (L 1).castLE hsub0

/-- The fetch's semaphore and the write-out's, as cells of the subcore. -/
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

/-- The subcore's own semaphores at zero are those two and the rest. -/
theorem ownSems0_V :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L))) fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩)]

/-- The subcore's own buffers are its scratch, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The table as the subcore's memref addresses it is the device's table. -/
theorem pts_w (q : PosShare TreeShare) (f : Buf (Elt F) (wLoc d)) :
    ((wV : Memref sig .scVector .hbm S2048x128 .f32).view.loc (V d (cV L) (jV L)) ↦{q} f : sProp 𝕄) = wLoc d ↦{q} f := by
  simp only [Memref.view_whole, View.set_whole]
/-- The scratch as its memref addresses it. -/
theorem pts_sT (f : Buf (Elt F) ((V d (cV L) (jV L)).loc cc0_scratch0)) :
    ((sT : Memref sig .scVector .vmem S200x128 .f32).view.loc (V d (cV L) (jV L)) ↦{fullShare} f : sProp 𝕄)
      = (V d (cV L) (jV L)).loc cc0_scratch0 ↦{fullShare} f := rfl
/-- A piece of the result as the trip's memref addresses it. -/
theorem pts_oRowK (k : Fin k0_t1_loop.trips) (f : Buf (Elt F) (oLoc d)) :
    ((oRowK L k).view.loc (V d (cV L) (jV L)) ↦[(oRowK L k).view.set]{fullShare} f : sProp 𝕄) = oLoc d ↦[rowSetK L k]{fullShare} f := rfl

/-! ## The loop's bookkeeping: which trips' pieces are written -/

/-- The trips from `k` on are trip `k` and the trips after it. -/
theorem todo_step (k : Fin k0_t1_loop.trips) :
    (Finset.univ.filter fun j : Fin k0_t1_loop.trips => k.val ≤ j.val) = insert k (Finset.univ.filter fun j : Fin k0_t1_loop.trips => k.val + 1 ≤ j.val) := by
  ext j; simp only [Finset.mem_filter, Finset.mem_univ, true_and, Finset.mem_insert, Fin.ext_iff]; omega
theorem notMem_todo (k : Fin k0_t1_loop.trips) : k ∉ (Finset.univ.filter fun j : Fin k0_t1_loop.trips => k.val + 1 ≤ j.val) := by
  simp only [Finset.mem_filter, Finset.mem_univ, true_and]; omega
/-- The trips before `k + 1` are trip `k` and the trips before it. -/
theorem done_step (k : Fin k0_t1_loop.trips) :
    (Finset.univ.filter fun j : Fin k0_t1_loop.trips => j.val < k.val + 1) = insert k (Finset.univ.filter fun j : Fin k0_t1_loop.trips => j.val < k.val) := by
  ext j; simp only [Finset.mem_filter, Finset.mem_univ, true_and, Finset.mem_insert, Fin.ext_iff]; omega
theorem notMem_done (k : Fin k0_t1_loop.trips) : k ∉ (Finset.univ.filter fun j : Fin k0_t1_loop.trips => j.val < k.val) := by
  simp only [Finset.mem_filter, Finset.mem_univ, true_and]; omega
/-- Before the first trip every trip is ahead and none is behind; after the last, the other way round. -/
theorem todo_zero : (Finset.univ.filter fun j : Fin k0_t1_loop.trips => 0 ≤ j.val) = Finset.univ := by
  ext j; simp
theorem done_zero : (Finset.univ.filter fun j : Fin k0_t1_loop.trips => j.val < 0) = ∅ := by
  ext j; simp
theorem todo_last : (Finset.univ.filter fun j : Fin k0_t1_loop.trips => k0_t1_loop.trips ≤ j.val) = ∅ := by
  ext j; simp only [Finset.mem_filter, Finset.mem_univ, true_and, Finset.notMem_empty, iff_false]; exact Nat.not_le.mpr j.isLt
theorem done_last : (Finset.univ.filter fun j : Fin k0_t1_loop.trips => j.val < k0_t1_loop.trips) = Finset.univ := by
  ext j; simp only [Finset.mem_filter, Finset.mem_univ, true_and, iff_true]; exact j.isLt

/-! ## The loop's invariant -/

/-- The loop's invariant before trip `n`. -/
def inv (O : CellTallies nD τ sig (HIx 1)) (W : Waits sig (HIx 1)) (n : Nat) (_ : PUnit) : sProp 𝕄 :=
  iprop(Transfers.MayWaits (V d (cV L) (jV L)) (none : HIx 1) O
    ∗ ((sT : Memref sig .scVector .vmem S200x128 .f32).view.loc (V d (cV L) (jV L)) ↦{fullShare} tab m d)
    ∗ (bigSep (Finset.univ.filter fun j : Fin k0_t1_loop.trips => j.val < n) fun j => oLoc d ↦[rowSetK L j]{fullShare} G m d)
    ∗ (bigSep (Finset.univ.filter fun j : Fin k0_t1_loop.trips => n ≤ j.val) fun j => oLoc d ↦[rowSetK L j]{fullShare} m (oLoc d))
    ∗ semVal (V d (cV L) (jV L), SemLoc.dma cc0_scoped1.sem) 0
    ∗ ∃ W', ⌜∀ p ∈ W', p ∈ W ∨ p.2 = none⌝ ∗ owes (V d (cV L) (jV L)) O W')

variable [FloatOps F]

/-- The task on the subcore at `L` of device `d`: from its read share of the table and its pieces of the result at the
    launch contents, to the same share and the pieces holding `G`; its scoped storage and semaphores back as they came. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ ((wLoc d ↦{q} m (wLoc d)) ∗ tilePieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L wV (Memref.isWhole_whole _) oV (Memref.isWhole_whole _) sT (Memref.isWhole_whole _) cc0_scoped0 cc0_scoped1)
          fun _ => iprop(((wLoc d ↦{q} m (wLoc d)) ∗ tilePieces d L (G m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hw, Ho⟩, ⟨⟨%fs, Hs⟩, Hbufs⟩, ⟨Hsem0, Hsem1, Hsems⟩, HO⟩
  ihave Hmw := ((K (F := F)).mayWaits_none (thr := V d (cV L) (jV L)) hO) $$ Hlv
  ihave Hw' := (Entails.of_eq (pts_w (F := F) d L q _).symm) $$ Hw
  ihave Hs' := (Entails.of_eq (pts_sT (F := F) d L _).symm) $$ Hs
  -- the fetch and its wait: the scratch, whatever it held, now holds the table's first 200 rows
  sl_exec
  have hland : View.write (Elt F) (sT : Memref sig .scVector .vmem S200x128 .f32).view fs (tile_body.sl.dma0 m d) Finset.univ = tab m d := by
    unfold tile_body.sl.dma0
    rw [ReadAs.apply_same]
    exact View.write_whole_univ _ _ _
  rw [hland]
  sl_for (inv m d L O (insert (SemLoc.dma cc0_scoped0.sem, (default : HIx 1)) W)) $$ [Hmw Hs' Ho Hsem1 HO]
  case region =>
    -- one trip: its piece leaves the pieces still ahead, is overwritten with the scratch, and joins the pieces behind
    intro k _
    unfold inv
    rw [todo_step k, SparseCore.bigSep_insert' (notMem_todo k), done_step k, SparseCore.bigSep_insert' (notMem_done k)]
    iintro ⟨Hmw, Hs, Hdone, ⟨Hrow, Htodo⟩, Hsem, %W', %hW', HO⟩
    ihave Hrow' := (Entails.of_eq (pts_oRowK (F := F) d L k _).symm) $$ Hrow
    sl_exec
    have hpay : tile_body.sl.dma0_1 m d = tab m d := by
      unfold tile_body.sl.dma0_1
      rw [ReadAs.apply_same]
      rfl
    ihave Hrow := (Entails.of_eq (show ((oRowK L k).view.loc (V d (cV L) (jV L)) ↦[(oRowK L k).view.set]{fullShare}
          (oRowK L k).view.writes (Elt F) (m (oLoc d)) [⟨Rect.whole S200x128, tile_body.sl.dma0_1 m d⟩] : sProp 𝕄)
        = oLoc d ↦[rowSetK L k]{fullShare} G m d from by
      rw [hpay]; exact pointsTo_congr (landed m d L k (m (oLoc d))))) $$ Hrow'
    sl_step
    isplitl [Hmw]; · iexact Hmw
    isplitl [Hs]; · iexact Hs
    isplitl [Hrow Hdone]
    · isplitl [Hrow]; · iexact Hrow
      iexact Hdone
    isplitl [Htodo]; · iexact Htodo
    isplitl [Hsem]; · iexact Hsem
    iexists (insert (SemLoc.dma cc0_scoped1.sem, (default : HIx 1)) W'); isplitr
    · ipureintro; intro p hp
      rcases Finset.mem_insert.mp hp with hp | hp
      · exact .inr (hp ▸ rfl)
      · exact hW' p hp
    · iexact HO
  · -- before the first trip: nothing behind, every piece ahead
    unfold inv
    rw [done_zero, todo_zero, bigSep_empty]
    isplitl [Hmw]; · iexact Hmw
    isplitl [Hs']; · iexact Hs'
    isplitr; · iempintro
    isplitl [Ho]; · iexact Ho
    isplitl [Hsem1]; · iexact Hsem1
    iexists _; isplitr
    · ipureintro; exact fun p hp => .inl hp
    · iexact HO
  -- after the last trip: every piece behind
  iintro %_ HI
  unfold inv
  rw [done_last, todo_last, bigSep_empty]
  icases HI with ⟨-, Hs, Hdone, -, Hsem1, %W', %hW', HO⟩
  sl_exec
  sl_step
  isplitl [Hw' Hdone]
  · isplitl [Hw']; · iapply (Entails.of_eq (pts_w (F := F) d L q _)); iexact Hw'
    iexact Hdone
  isplitl [Hs Hbufs]
  · isplitl [Hs]; · iexists _; iexact Hs
    iexact Hbufs
  isplitl [Hsem0 Hsem1 Hsems]
  · isplitl [Hsem0]; · iexact Hsem0
    isplitl [Hsem1]; · iexact Hsem1
    iexact Hsems
  iexists W'; isplitr
  · ipureintro; intro p hp
    rcases hW' p hp with h | h
    · rcases Finset.mem_insert.mp h with h | h
      · exact .inr (h ▸ rfl)
      · exact .inl h
    · exact .inr h
  · iexact HO

end Tile

/-! ## The launch theorem's obligation for a subcore's task -/

/-- The body table's row for a vector subcore is the kernel function at the subcore's coordinates. -/
theorem defs₀_vector [FloatOps F] (c : Fin τ.nSC) (s : Fin τ.nSub) :
    defs₀ (F := F) (.scVector c s) 0 ()
      = SparseCore.onTile hcore0 hsub0 (fun c s => cc0_k (coordsV c s)
          wV (Memref.isWhole_whole _) oV (Memref.isWhole_whole _) sT (Memref.isWhole_whole _) cc0_scoped0 cc0_scoped1) ⟨⟩ c s := rfl

/-- Waits recorded at no call's index are waits recorded at no call's index or at this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task, as the launch theorem asks for it. -/
theorem tileObl [FloatOps F] (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF _ O W hO).trans (wp_mono frame _ _ fun _ => obl_post)

end Cert.Proof.KB

end
-- ==== Proof.KB.Run.lean ====
/-
  The printed kernel's run, assembled: the launch theorem applied to the subcore's task (every subcore ends with its
  pieces of the result holding `G`) and to the partition of the result into those pieces. Every weakly fair execution
  of the device's threads terminates, nothing faulting, with the result array at `Spec.tiled` of the launch memory's
  table and both arguments unchanged.
-/
import proofs.«213483_g46943992545627_cont_8to1_c_492_13_alg».proof.Proof.KB.Launch
import proofs.«213483_g46943992545627_cont_8to1_c_492_13_alg».proof.Proof.KB.Rows
import proofs.«213483_g46943992545627_cont_8to1_c_492_13_alg».proof.Proof.KB.Tile

noncomputable section

namespace Cert.Proof.KB

open Cert.Kernel Cert.Kernel.Gen
open Idealize.ShloMosaic Idealize.SL.Sem

variable {F : FTy → Type}

theorem run [FloatOps F] [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩ (QC m) :=
  run_main m ρ (fun d f => oPts_split d f) (tileObl m facts)

end Cert.Proof.KB

end
-- ==== Proof.RefRun.lean ====
/-
  The reference, run, and what its result holds.

  Its @main is a straight line of twenty-eight host operations once the two functions it calls are written out at
  their call sites. Five build the index array: a column of the numbers 0 … 199 copied into every batch entry, so
  that entry (b, s) holds the number s. Twenty-three look the table up at it: shift a negative index by the table's
  row count (the inner function's one selection), test the index against the table's row range, gather the rows,
  and keep a gathered entry where the test holds, the not-a-number pattern elsewhere. Every weakly fair execution
  terminates with each buffer at the operations' composed term of the launch contents.

  Read at one index (b, s, u) that term is the table's entry (s, u). The number s is not negative, so the shift is
  not taken; it is at least 0 and at most 2047, so the range test holds at every index and the gather's clamp of the
  row into [0, 2047] changes nothing. No arithmetic is done on a table entry and nothing is assumed of the arguments
  (the integer argument is never read), so all of this holds for any float values and any launch memory.
-/
import proofs.«213483_g46943992545627_cont_8to1_c_492_13_alg».proof.ReferenceIdeal
import proofs.«213483_g46943992545627_cont_8to1_c_492_13_alg».proof.Proof.Gen.ReferenceIdeal
import proofs.«213483_g46943992545627_cont_8to1_c_492_13_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.Lib.WordArith
import Idealize.ShloMosaic.Lib.Affine
import Idealize.ShloMosaic.PureOps.Reduce
import Idealize.ShloMosaic.PureOps.Ideal

noncomputable section

namespace Cert.RefValue

open Cert.ReferenceIdeal Cert.ReferenceIdeal.Gen Idealize.ShloMosaic Idealize.ShloMosaic.ValueIdx Idealize.ShloMosaic.WordArith

variable {F : FTy → Type} [FloatOps F]

/-! ## The composed term, by stages -/

/-- The index array: a column of the numbers 0 … 199, copied into each of the 4096 batch entries. -/
def idxArr : IVec S4096x200 32 :=
  shapeCast S4096x200
    (broadcastInDim S4096x1x1x200 ![0, 1, 2, 3] bcast_S1x1x1x200_S4096x1x1x200_0_1_2_3
      (shapeCast S1x1x1x200 (broadcastInDim S1x200 ![1] bcast_S200_S1x200_1 (iotaInDim S200 32 0))
        shapeCasts_S1x200_S1x1x1x200))
    shapeCasts_S4096x1x1x200_S4096x200

/-- The gather's start indices: each index shifted by the table's 2048 rows where it is negative, with a unit axis
    appended. -/
def startArr : IVec S4096x200x1 32 :=
  broadcastInDim S4096x200x1 ![0, 1] bcast_S4096x200_S4096x200x1_0_1
    (select (cmpi .slt idxArr (broadcastInDim S4096x200 ![] bcast_S_S4096x200 (constantI S_ 32 0#32)))
      (addi idxArr (broadcastInDim S4096x200 ![] bcast_S_S4096x200 (constantI S_ 32 2048#32))) idxArr)

/-- The range test before its reduction: 0 ≤ start ∧ start ≤ 2047, at each start index. -/
def rangeBits : IVec S4096x200x1 1 :=
  andi (cmpi .sge startArr (broadcastInDim S4096x200x1 ![] bcast_S_S4096x200x1 (constantI S_ 32 0#32)))
    (cmpi .sle startArr (broadcastInDim S4096x200x1 ![0, 1, 2] bcast_S1x1x1_S4096x200x1_0_1_2
      (broadcastInDim S1x1x1 ![2] bcast_S1_S1x1x1_2 (constantI S1 32 2047#32))))

/-- The range test: the conjunction over the unit axis. -/
def inRange : IVec S4096x200 1 :=
  Host.reduce IntOp.andi rangeBits (constantI S_ 1 1#1) reducesTo_S4096x200x1_S4096x200_d2 h_S_

/-- The reference's result as a function of the table: the gathered rows where the range test holds, the
    not-a-number pattern elsewhere. -/
def refTerm (W : FVec F S2048x128 .f32) : FVec F S4096x200x128 .f32 :=
  select (broadcastInDim S4096x200x128 ![0, 1] bcast_S4096x200_S4096x200x128_0_1 inRange)
    (Host.gather gather_S2048x128_S4096x200x1_S4096x200x128_2_0_n_n_0_2_1128 W startArr)
    (broadcastInDim S4096x200x128 ![] bcast_S_S4096x200x128 (constant S_ .f32 0x7FC00000#32))

/-! ## Each stage at an index -/

/-- The index array holds the number s at (b, s). -/
theorem idxArr_apply (b : Fin 4096) (s : Fin 200) : idxArr (ix2 b s) = BitVec.ofNat 32 s.val := by
  unfold idxArr
  refine (shapeCast_apply _ _ (ix2 b s) (ix4 b (0 : Fin 1) (0 : Fin 1) s)
    (by rw [Shape.rowMajor_val_two, Shape.rowMajor_val_four]
        show ((b.val * 1 + 0) * 1 + 0) * 200 + s.val = b.val * 200 + s.val
        omega)).trans ?_
  refine (broadcastInDim_apply _ _ _ _ (ix4 (0 : Fin 1) (0 : Fin 1) (0 : Fin 1) s)
    (fun a => match a with | ⟨0, _⟩ => rfl | ⟨1, _⟩ => rfl | ⟨2, _⟩ => rfl | ⟨3, _⟩ => rfl)).trans ?_
  refine (shapeCast_apply _ _ _ (ix2 (0 : Fin 1) s)
    (by rw [Shape.rowMajor_val_two, Shape.rowMajor_val_four]
        show 0 * 200 + s.val = ((0 * 1 + 0) * 1 + 0) * 200 + s.val
        omega)).trans ?_
  refine (broadcastInDim_apply _ _ _ _ (ix1 s) (fun a => match a with | ⟨0, _⟩ => rfl)).trans ?_
  rfl

/-- A number below 200, written as a 32-bit word and read back signed, is itself. -/
theorem toInt_small (s : Fin 200) : (BitVec.ofNat 32 s.val).toInt = (s.val : Int) :=
  WordArith.toInt_ofNat_small s.val (by have := s.isLt; omega)

/-- The start index at (b, s, 0) is the number s: it is not negative, so it is not shifted. -/
theorem startArr_apply (b : Fin 4096) (s : Fin 200) (z : Fin 1) : startArr (ix3 b s z) = BitVec.ofNat 32 s.val := by
  unfold startArr
  refine (broadcastInDim_apply _ _ _ _ (ix2 b s) (fun a => match a with | ⟨0, _⟩ => rfl | ⟨1, _⟩ => rfl)).trans ?_
  show Scalar.select (IntOp.cmpi .slt (idxArr (ix2 b s)) 0#32) (IntOp.addi (idxArr (ix2 b s)) 2048#32) (idxArr (ix2 b s)) = _
  rw [idxArr_apply]
  have hz : (0#32 : BitVec 32).toInt = 0 := by decide
  have h0 : IntOp.cmpi .slt (BitVec.ofNat 32 s.val) 0#32 = 0#1 :=
    eq_zero_of_ne_one fun h => by
      have h' := IntOp.cmpi_slt.mp h
      rw [toInt_small, hz] at h'
      omega
  rw [h0, select_zero]

/-- The range test holds at every start index: 0 ≤ s ≤ 199 ≤ 2047. -/
theorem rangeBits_apply (i : S4096x200x1.Idx) : rangeBits i = 1#1 := by
  obtain ⟨b, s, z, rfl⟩ : ∃ (b : Fin 4096) (s : Fin 200) (z : Fin 1), i = ix3 b s z := ⟨i 0, i 1, i 2, eq_ix3 i⟩
  show IntOp.andi (IntOp.cmpi .sge (startArr (ix3 b s z)) 0#32) (IntOp.cmpi .sle (startArr (ix3 b s z)) 2047#32) = 1#1
  rw [startArr_apply]
  have hz : (0#32 : BitVec 32).toInt = 0 := by decide
  have hm : (2047#32 : BitVec 32).toInt = 2047 := by decide
  have hs := s.isLt
  refine IntOp.andi_eq_one.mpr ⟨IntOp.cmpi_sge.mpr ?_, IntOp.cmpi_sle.mpr ?_⟩
  · rw [toInt_small, hz]; omega
  · rw [toInt_small, hm]; omega

/-- A conjunction of ones, from one, is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_one f hf l

/-- The reduced range test holds at every (b, s). -/
theorem inRange_apply (j : S4096x200.Idx) : inRange j = 1#1 := by
  unfold inRange
  rw [Host.reduce_eq_foldl]
  exact foldl_andi_one _ rangeBits_apply _

/-! ## The gather of rows of a rank-2 table, read at an index -/

/-- Entry (b, s, u) of the gather is the table's entry at lane u of the row the start index (b, s, 0) names, read
    signed and clamped into the table's rows [0, 2047]. -/
theorem gather_row_apply {α : Type} {w : Nat} (W : S2048x128.Idx → α) (idx : IVec S4096x200x1 w)
    (b : Fin 4096) (s : Fin 200) (u : Fin 128) (r : Fin 2048)
    (hr : r.val = min (idx (ix3 b s (0 : Fin 1))).toInt.toNat 2047) :
    Host.gather gather_S2048x128_S4096x200x1_S4096x200x128_2_0_n_n_0_2_1128 W idx (ix3 b s u) = W (ix2 r u) := by
  unfold Host.gather
  congr 1
  funext a
  refine Fin.ext ?_
  show gather_S2048x128_S4096x200x1_S4096x200x128_2_0_n_n_0_2_1128.start (ix3 b s u) idx a
      + gather_S2048x128_S4096x200x1_S4096x200x128_2_0_n_n_0_2_1128.batchCoord (ix3 b s u) a
      + gather_S2048x128_S4096x200x1_S4096x200x128_2_0_n_n_0_2_1128.offCoord (ix3 b s u) a = _
  rw [GatherDims.batchCoord_eq_zero _ _ _ List.not_mem_nil, Nat.add_zero]
  revert a
  refine Fin.forall_fin_two.mpr ⟨?_, ?_⟩
  · -- the row axis: named by the start index map, collapsed (no offset coordinate)
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S2048x128_S4096x200x1_S4096x200x128_2_0_n_n_0_2_1128.startIndexMap from List.mem_singleton.mpr rfl)]
    have hsi : gather_S2048x128_S4096x200x1_S4096x200x128_2_0_n_n_0_2_1128.siIdx (ix3 b s u)
        ⟨List.idxOf (0 : Fin 2) gather_S2048x128_S4096x200x1_S4096x200x128_2_0_n_n_0_2_1128.startIndexMap,
          List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, hr]
    rfl
  · -- the lane axis: not named by the start index map (start 0), the result's offset axis
    have hn : (1 : Fin 2) ∉ gather_S2048x128_S4096x200x1_S4096x200x128_2_0_n_n_0_2_1128.startIndexMap :=
      fun h => absurd (List.mem_singleton.mp h) (by decide)
    have hk : (1 : Fin 2) ∈ gather_S2048x128_S4096x200x1_S4096x200x128_2_0_n_n_0_2_1128.sKept :=
      (GatherDims.mem_sKept _ _).mpr ⟨fun h => absurd (List.mem_singleton.mp h) (by decide), List.not_mem_nil⟩
    unfold GatherDims.start GatherDims.offCoord
    rw [dif_neg hn, dif_pos hk, Nat.zero_add]
    rfl

/-! ## The result at an index -/

/-- The reference's result is the table's first 200 rows in every batch entry. -/
theorem refTerm_eq (W : FVec F S2048x128 .f32) : refTerm W = Cert.Spec.tiled W := by
  funext i
  obtain ⟨b, s, u, rfl⟩ : ∃ (b : Fin 4096) (s : Fin 200) (u : Fin 128), i = ix3 b s u := ⟨i 0, i 1, i 2, eq_ix3 i⟩
  unfold refTerm
  rw [select_apply,
    broadcastInDim_apply _ _ inRange (ix3 b s u) (ix2 b s) (fun a => match a with | ⟨0, _⟩ => rfl | ⟨1, _⟩ => rfl),
    inRange_apply, select_one]
  refine (gather_row_apply W startArr b s u ⟨s.val, Nat.lt_of_lt_of_le s.isLt (by decide)⟩ ?_).trans rfl
  rw [startArr_apply, toInt_small]
  have hs := s.isLt
  show s.val = min ((s.val : Int).toNat) 2047
  rw [Int.toNat_natCast]
  omega

end Cert.RefValue

namespace Cert.RefRun

open Cert.ReferenceIdeal Cert.ReferenceIdeal.Gen Idealize.ShloMosaic Idealize.ShloMosaic.TcCoe Idealize.SL.Sem
open Idealize.ShloMosaic.StableHlo Idealize.ShloMosaic.ValueIdx

variable {F : FTy → Type} [FloatOps F]

/-- @main's twenty-eight operations in order, the calls written out: the five that build the index array, then
    the lookup function's twenty-two over its call's buffers, the inner selection (one operation) in its place.
    Each is stated at its buffers' own types, a reshape as the function it is. -/
abbrev ops : List (HloOp τ sig (Elt F)) :=
  [ nullary main_v0 (iotaInDim S200 32 0 : (⟨S200, .i32⟩ : BufTy).Contents (Elt F)),
    unary main_v0 main_v1 (broadcastInDim S1x200 ![1] bcast_S200_S1x200_1 : (⟨S200, .i32⟩ : BufTy).Contents (Elt F) → (⟨S1x200, .i32⟩ : BufTy).Contents (Elt F)),
    unary main_v1 main_v2 (fun x => shapeCast S1x1x1x200 x shapeCasts_S1x200_S1x1x1x200 : (⟨S1x200, .i32⟩ : BufTy).Contents (Elt F) → (⟨S1x1x1x200, .i32⟩ : BufTy).Contents (Elt F)),
    unary main_v2 main_v3 (broadcastInDim S4096x1x1x200 ![0, 1, 2, 3] bcast_S1x1x1x200_S4096x1x1x200_0_1_2_3 : (⟨S1x1x1x200, .i32⟩ : BufTy).Contents (Elt F) → (⟨S4096x1x1x200, .i32⟩ : BufTy).Contents (Elt F)),
    unary main_v3 main_v4 (fun x => shapeCast S4096x200 x shapeCasts_S4096x1x1x200_S4096x200 : (⟨S4096x1x1x200, .i32⟩ : BufTy).Contents (Elt F) → (⟨S4096x200, .i32⟩ : BufTy).Contents (Elt F)),
    nullary main_call0_c (constantI S_ 32 0#32 : (⟨S_, .i32⟩ : BufTy).Contents (Elt F)),
    unary main_call0_c main_call0_v0 (broadcastInDim S4096x200 ![] bcast_S_S4096x200 : (⟨S_, .i32⟩ : BufTy).Contents (Elt F) → (⟨S4096x200, .i32⟩ : BufTy).Contents (Elt F)),
    binary main_v4 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 2048#32 : (⟨S_, .i32⟩ : BufTy).Contents (Elt F)),
    unary main_call0_c_0 main_call0_v2 (broadcastInDim S4096x200 ![] bcast_S_S4096x200 : (⟨S_, .i32⟩ : BufTy).Contents (Elt F) → (⟨S4096x200, .i32⟩ : BufTy).Contents (Elt F)),
    binary main_v4 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_v4 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 2047#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S4096x200x1_S4096x200_d2 h_S_ : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 (fun x i => Host.gather gather_S2048x128_S4096x200x1_S4096x200x128_2_0_n_n_0_2_1128 x i : (⟨S2048x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32 : (⟨S_, .f32⟩ : BufTy).Contents (Elt F)),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v5 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)) ]

/-! An operation over buffers that carry their types, at literal buffers, is the operation over the buffers: the
    transport of contents along a type equation that holds by computation is the identity. Stated for any function,
    so that nothing of the function is opened. -/

section Typed
variable {τ' : Topo} {sig' : RefSig} {Val : EltTy → Type}

theorem nullary_of (y : Ref sig' .tc) (h1 : y.ty = y.ty) (h2 h3) (v : y.ty.Contents Val) :
    TRef.nullary (τ := τ') (TRef.of (T := y.ty) y h1 h2 h3) v = StableHlo.nullary y v (TRef.of (T := y.ty) y h1 h2 h3).dev := rfl

theorem unary_of (x y : Ref sig' .tc) (hx1 : x.ty = x.ty) (hx2 hx3) (hy1 : y.ty = y.ty) (hy2 hy3)
    (f : x.ty.Contents Val → y.ty.Contents Val) :
    TRef.unary (τ := τ') (TRef.of (T := x.ty) x hx1 hx2 hx3) (TRef.of (T := y.ty) y hy1 hy2 hy3) f
      = StableHlo.unary x y f (TRef.of (T := x.ty) x hx1 hx2 hx3).dev (TRef.of (T := y.ty) y hy1 hy2 hy3).dev := rfl

theorem binary_of (a b y : Ref sig' .tc) (ha1 : a.ty = a.ty) (ha2 ha3) (hb1 : b.ty = b.ty) (hb2 hb3) (hy1 : y.ty = y.ty) (hy2 hy3)
    (f : a.ty.Contents Val → b.ty.Contents Val → y.ty.Contents Val) :
    TRef.binary (τ := τ') (TRef.of (T := a.ty) a ha1 ha2 ha3) (TRef.of (T := b.ty) b hb1 hb2 hb3) (TRef.of (T := y.ty) y hy1 hy2 hy3) f
      = StableHlo.binary a b y f (TRef.of (T := a.ty) a ha1 ha2 ha3).dev (TRef.of (T := b.ty) b hb1 hb2 hb3).dev
          (TRef.of (T := y.ty) y hy1 hy2 hy3).dev := rfl

theorem ternary_of (c a b y : Ref sig' .tc) (hc1 : c.ty = c.ty) (hc2 hc3) (ha1 : a.ty = a.ty) (ha2 ha3) (hb1 : b.ty = b.ty) (hb2 hb3)
    (hy1 : y.ty = y.ty) (hy2 hy3) (f : c.ty.Contents Val → a.ty.Contents Val → b.ty.Contents Val → y.ty.Contents Val) :
    TRef.ternary (τ := τ') (TRef.of (T := c.ty) c hc1 hc2 hc3) (TRef.of (T := a.ty) a ha1 ha2 ha3) (TRef.of (T := b.ty) b hb1 hb2 hb3)
        (TRef.of (T := y.ty) y hy1 hy2 hy3) f
      = StableHlo.ternary c a b y f (TRef.of (T := c.ty) c hc1 hc2 hc3).dev (TRef.of (T := a.ty) a ha1 ha2 ha3).dev
          (TRef.of (T := b.ty) b hb1 hb2 hb3).dev (TRef.of (T := y.ty) y hy1 hy2 hy3).dev := rfl

end Typed

/-- A reshape is the row-major re-indexing, as a function of the operand's contents. -/
theorem reshape_v2 : (reshape main_v1 main_v2 rfl shapeCasts_S1x200_S1x1x1x200 : HloOp τ sig (Elt F))
    = unary main_v1 main_v2 (fun x => shapeCast S1x1x1x200 x shapeCasts_S1x200_S1x1x1x200 : (⟨S1x200, .i32⟩ : BufTy).Contents (Elt F) → (⟨S1x1x1x200, .i32⟩ : BufTy).Contents (Elt F)) := rfl

theorem reshape_v4 : (reshape main_v3 main_v4 rfl shapeCasts_S4096x1x1x200_S4096x200 : HloOp τ sig (Elt F))
    = unary main_v3 main_v4 (fun x => shapeCast S4096x200 x shapeCasts_S4096x1x1x200_S4096x200 : (⟨S4096x1x1x200, .i32⟩ : BufTy).Contents (Elt F) → (⟨S4096x200, .i32⟩ : BufTy).Contents (Elt F)) := rfl

-- twenty-eight binds re-associated
set_option maxRecDepth 1024 in
/-- @main is that straight line: the two functions' definitions unfolded at their calls; an operation over buffers
    that carry their types is the operation over the buffers. -/
theorem main_eq (c : Dev nD) : main (F := F) c = seq ops := by
  simp only [main, fn_take.body, fn_where.body, main_call0, main_call0_call0, seq, bind_assoc, pure_bind,
    nullary_of, unary_of, binary_of, ternary_of, reshape_v2, reshape_v4]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of @main terminates with each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the composed term of the table's launch contents. -/
theorem out_eq (V : Valuation τ sig (Elt F)) :
    after ops V (main_v5 : DevRef τ sig) = Cert.RefValue.refTerm (V (main_arg1 : DevRef τ sig)) := by
  after_results
  unfold Cert.RefValue.refTerm Cert.RefValue.inRange Cert.RefValue.rangeBits Cert.RefValue.startArr Cert.RefValue.idxArr
  with_reducible rfl

/-- No operation writes the integer argument. -/
theorem arg0_eq (V : Valuation τ sig (Elt F)) :
    after ops V (main_arg0 : DevRef τ sig) = V (main_arg0 : DevRef τ sig) := by
  after_results

/-- No operation writes the table. -/
theorem arg1_eq (V : Valuation τ sig (Elt F)) :
    after ops V (main_arg1 : DevRef τ sig) = V (main_arg1 : DevRef τ sig) := by
  after_results

/-- For any float values, from any launch memory with zero counters: every weakly fair execution of @main terminates
    with the result the table's first 200 rows in every batch entry and both arguments unchanged. -/
theorem runF (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5) = Cert.Spec.tiled (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v5).trans ((out_eq _).trans (Cert.RefValue.refTerm_eq _)),
      (h c main_arg0).trans (arg0_eq _), (h c main_arg1).trans (arg1_eq _)⟩) (run_main m ρ)

/-- The same at the extended reals. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v5)
            = Cert.Spec.tiled (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  runF (F := Ideal) m ρ

end Cert.RefRun

end
-- ==== Proof.lean ====
/-
  The proof of `Cert.Claim`: the kernel (at the word level and idealized) and the idealized reference all run to the end
  with their arguments unchanged, and the two idealized programs end with the same result.

  The kernel has each of the 32 vector subcores copy rows 0 … 199 of the table into its scratch and then copy the scratch
  into 128 batch entries of the result that no other subcore writes; the reference looks the table up at the row numbers
  0, 1, …, 199, the same for every batch entry. Both results are ONE function of the table, `Spec.tiled`: entry (b, s, u)
  is the table's (s, u). No table entry is computed with, so nothing about extended reals is used and the precondition
  is never opened. The kernel's run (Proof/KI for the idealized program, Proof/KB the same text for the printed one) is the
  SparseCore launch theorem over the subcore's task; the reference's run (Proof/RefRun) is its host operations read in
  order and then at an index. The ideal pass rewrote nothing, so `preserves` is `True`.
-/
import proofs.«213483_g46943992545627_cont_8to1_c_492_13_alg».proof.Defs
import proofs.«213483_g46943992545627_cont_8to1_c_492_13_alg».proof.Proof.Gen.Kernel
import proofs.«213483_g46943992545627_cont_8to1_c_492_13_alg».proof.Proof.Gen.Kernel.Skeleton
import proofs.«213483_g46943992545627_cont_8to1_c_492_13_alg».proof.Proof.Gen.KernelIdeal
import proofs.«213483_g46943992545627_cont_8to1_c_492_13_alg».proof.Proof.Gen.KernelIdeal.Skeleton
import proofs.«213483_g46943992545627_cont_8to1_c_492_13_alg».proof.Proof.Gen.ReferenceIdeal
import proofs.«213483_g46943992545627_cont_8to1_c_492_13_alg».proof.Proof.Gen.Pre_input_domain
import proofs.«213483_g46943992545627_cont_8to1_c_492_13_alg».proof.Proof.KI.Run
import proofs.«213483_g46943992545627_cont_8to1_c_492_13_alg».proof.Proof.KB.Run
import proofs.«213483_g46943992545627_cont_8to1_c_492_13_alg».proof.Proof.RefRun
import Idealize.ShloMosaic.Adequacy
import Idealize.ShloMosaic.Init

noncomputable section

namespace Cert.Proof

open Idealize.ShloMosaic Idealize.SL.Sem

/-- The printed kernel runs and leaves its arguments as they were: its run with the result's value dropped. -/
theorem frame_k : Cert.frame_Kernel := fun m ρ _ =>
  (θ_run Cert.Kernel.defs _ _).mono (fun _ h c => ⟨(h c).2.1, (h c).2.2⟩) (Cert.Proof.KB.run (F := Bits) m ρ)

/-- The same of the idealized kernel. -/
theorem frame_ki : Cert.frame_KernelIdeal := fun m ρ _ =>
  (θ_run Cert.KernelIdeal.defs _ _).mono (fun _ h c => ⟨(h c).2.1, (h c).2.2⟩) (Cert.Proof.KI.run (F := Ideal) m ρ)

/-- The reference runs and leaves its arguments as they were. -/
theorem frame_ri : Cert.frame_ReferenceIdeal := fun m ρ _ =>
  (θ_run Cert.ReferenceIdeal.defs _ _).mono (fun _ h c => (h c).2) (Cert.RefRun.run m ρ)

/-- From memories agreeing on the arguments both idealized programs end with the result at `Spec.tiled` of the table:
    the kernel's of its own memory's table, the reference's of its own, and the two tables are one. -/
theorem algebraic : Cert.algebraic_KernelIdeal_ReferenceIdeal := by
  intro m ρ m' ρ' _ hagree
  refine ⟨fun c => Cert.Proof.KI.G m c, ?_, ?_⟩
  · exact (θ_run Cert.KernelIdeal.defs _ _).mono (fun _ h c => h c) (Cert.Proof.KI.run (F := Ideal) m ρ)
  · refine (θ_run Cert.ReferenceIdeal.defs _ _).mono (fun _ h c => ⟨(h c).1.trans ?_, (h c).2⟩) (Cert.RefRun.run m' ρ')
    rw [(hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
